-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S2x1 : Shape := ⟨2, ![2, 1]⟩
abbrev S_ : Shape := ⟨0, ![]⟩

class Facts : Prop where
  bcast_S_S2x1 : S_.BroadcastsInDim S2x1 (![] : Fin 0 → Fin S2x1.rank)
  reducesTo_S2x1_S_d0_1 : S2x1.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S2x1 .f32) : IVec S_ 1 :=
  let main_v0 : FVec F S2x1 .f32 := Host.absf main_arg1
  let main_cst : FVec F S_ .f32 := constant S_ .f32 0x7F800000#32
  let main_v1 : FVec F S2x1 .f32 := broadcastInDim S2x1 ![] bcast_S_S2x1 main_cst
  let main_v2 : IVec S2x1 1 := cmpf .olt main_v0 main_v1
  let main_c : IVec S_ 1 := constantI S_ 1 1#1
  let main_v3 : IVec S_ 1 := (fun x v => Host.reduce IntOp.andi x v reducesTo_S2x1_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 1#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S2x1 : Shape := ⟨2, ![2, 1]⟩
abbrev S2 : Shape := ⟨1, ![2]⟩
abbrev S1024 : Shape := ⟨1, ![1024]⟩
abbrev S16 : Shape := ⟨1, ![16]⟩
abbrev S_ : Shape := ⟨0, ![]⟩
abbrev S1 : Shape := ⟨1, ![1]⟩
abbrev S16384x1 : Shape := ⟨2, ![16384, 1]⟩

abbrev nBuf : Table → Nat
  | .hbm => 5
  | .local .scVector .vmem => 3
  | _ => 0

abbrev bufTy : (tb : Table) → Fin (nBuf tb) → BufTy
  | .hbm, ⟨0, _⟩ => ⟨S16384, .i32⟩
  | .hbm, ⟨1, _⟩ => ⟨S2x1, .f32⟩
  | .hbm, ⟨2, _⟩ => ⟨S2, .f32⟩
  | .hbm, ⟨3, _⟩ => ⟨S16384, .f32⟩
  | .hbm, ⟨4, _⟩ => ⟨S16384x1, .f32⟩
  | .local .scVector .vmem, ⟨0, _⟩ => ⟨S1024, .i32⟩
  | .local .scVector .vmem, ⟨1, _⟩ => ⟨S16, .f32⟩
  | .local .scVector .vmem, ⟨2, _⟩ => ⟨S1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  ![v2.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S2x1_S2 : S2x1.ShapeCasts S2
  inb_S16_S2_0 : ∀ a, (![0] : Fin 1 → Nat) a + S2.size a ≤ S16.size a
  inb_S16_S16_0 : ∀ a, (![0] : Fin 1 → Nat) a + S16.size a ≤ S16.size a
  h_S16 : 0 < S16.numel
  shapeCasts_S16_S16 : S16.ShapeCasts S16
  slices_S16_o0_S1 : S16.Slices ![0] S1
  inpos_S1_p0 : ∀ a, (![0] : Fin 1 → Nat) a < S1.size a
  slices_S16_o1_S1 : S16.Slices ![1] S1
  inb_S1024_S16_0 : ∀ a, (![0] : Fin 1 → Nat) a + S16.size a ≤ S1024.size a
  inb_S1024_S16_16 : ∀ a, (![16] : Fin 1 → Nat) a + S16.size a ≤ S1024.size a
  inb_S1024_S16_32 : ∀ a, (![32] : Fin 1 → Nat) a + S16.size a ≤ S1024.size a
  inb_S1024_S16_48 : ∀ a, (![48] : Fin 1 → Nat) a + S16.size a ≤ S1024.size a
  inb_S1024_S16_64 : ∀ a, (![64] : Fin 1 → Nat) a + S16.size a ≤ S1024.size a
  inb_S1024_S16_80 : ∀ a, (![80] : Fin 1 → Nat) a + S16.size a ≤ S1024.size a
  inb_S1024_S16_96 : ∀ a, (![96] : Fin 1 → Nat) a + S16.size a ≤ S1024.size a
  inb_S1024_S16_112 : ∀ a, (![112] : Fin 1 → Nat) a + S16.size a ≤ S1024.size a
  inb_S1024_S16_128 : ∀ a, (![128] : Fin 1 → Nat) a + S16.size a ≤ S1024.size a
  inb_S1024_S16_144 : ∀ a, (![144] : Fin 1 → Nat) a + S16.size a ≤ S1024.size a
  inb_S1024_S16_160 : ∀ a, (![160] : Fin 1 → Nat) a + S16.size a ≤ S1024.size a
  inb_S1024_S16_176 : ∀ a, (![176] : Fin 1 → Nat) a + S16.size a ≤ S1024.size a
  inb_S1024_S16_192 : ∀ a, (![192] : Fin 1 → Nat) a + S16.size a ≤ S1024.size a
  inb_S1024_S16_208 : ∀ a, (![208] : Fin 1 → Nat) a + S16.size a ≤ S1024.size a
  inb_S1024_S16_224 : ∀ a, (![224] : Fin 1 → Nat) a + S16.size a ≤ S1024.size a
  inb_S1024_S16_240 : ∀ a, (![240] : Fin 1 → Nat) a + S16.size a ≤ S1024.size a
  inb_S1024_S16_256 : ∀ a, (![256] : Fin 1 → Nat) a + S16.size a ≤ S1024.size a
  inb_S1024_S16_272 : ∀ a, (![272] : Fin 1 → Nat) a + S16.size a ≤ S1024.size a
  inb_S1024_S16_288 : ∀ a, (![288] : Fin 1 → Nat) a + S16.size a ≤ S1024.size a
  inb_S1024_S16_304 : ∀ a, (![304] : Fin 1 → Nat) a + S16.size a ≤ S1024.size a
  inb_S1024_S16_320 : ∀ a, (![320] : Fin 1 → Nat) a + S16.size a ≤ S1024.size a
  inb_S1024_S16_336 : ∀ a, (![336] : Fin 1 → Nat) a + S16.size a ≤ S1024.size a
  inb_S1024_S16_352 : ∀ a, (![352] : Fin 1 → Nat) a + S16.size a ≤ S1024.size a
  inb_S1024_S16_368 : ∀ a, (![368] : Fin 1 → Nat) a + S16.size a ≤ S1024.size a
  inb_S1024_S16_384 : ∀ a, (![384] : Fin 1 → Nat) a + S16.size a ≤ S1024.size a
  inb_S1024_S16_400 : ∀ a, (![400] : Fin 1 → Nat) a + S16.size a ≤ S1024.size a
  inb_S1024_S16_416 : ∀ a, (![416] : Fin 1 → Nat) a + S16.size a ≤ S1024.size a
  inb_S1024_S16_432 : ∀ a, (![432] : Fin 1 → Nat) a + S16.size a ≤ S1024.size a
  inb_S1024_S16_448 : ∀ a, (![448] : Fin 1 → Nat) a + S16.size a ≤ S1024.size a
  inb_S1024_S16_464 : ∀ a, (![464] : Fin 1 → Nat) a + S16.size a ≤ S1024.size a
  inb_S1024_S16_480 : ∀ a, (![480] : Fin 1 → Nat) a + S16.size a ≤ S1024.size a
  inb_S1024_S16_496 : ∀ a, (![496] : Fin 1 → Nat) a + S16.size a ≤ S1024.size a
  inb_S1024_S16_512 : ∀ a, (![512] : Fin 1 → Nat) a + S16.size a ≤ S1024.size a
  inb_S1024_S16_528 : ∀ a, (![528] : Fin 1 → Nat) a + S16.size a ≤ S1024.size a
  inb_S1024_S16_544 : ∀ a, (![544] : Fin 1 → Nat) a + S16.size a ≤ S1024.size a
  inb_S1024_S16_560 : ∀ a, (![560] : Fin 1 → Nat) a + S16.size a ≤ S1024.size a
  inb_S1024_S16_576 : ∀ a, (![576] : Fin 1 → Nat) a + S16.size a ≤ S1024.size a
  inb_S1024_S16_592 : ∀ a, (![592] : Fin 1 → Nat) a + S16.size a ≤ S1024.size a
  inb_S1024_S16_608 : ∀ a, (![608] : Fin 1 → Nat) a + S16.size a ≤ S1024.size a
  inb_S1024_S16_624 : ∀ a, (![624] : Fin 1 → Nat) a + S16.size a ≤ S1024.size a
  inb_S1024_S16_640 : ∀ a, (![640] : Fin 1 → Nat) a + S16.size a ≤ S1024.size a
  inb_S1024_S16_656 : ∀ a, (![656] : Fin 1 → Nat) a + S16.size a ≤ S1024.size a
  inb_S1024_S16_672 : ∀ a, (![672] : Fin 1 → Nat) a + S16.size a ≤ S1024.size a
  inb_S1024_S16_688 : ∀ a, (![688] : Fin 1 → Nat) a + S16.size a ≤ S1024.size a
  inb_S1024_S16_704 : ∀ a, (![704] : Fin 1 → Nat) a + S16.size a ≤ S1024.size a
  inb_S1024_S16_720 : ∀ a, (![720] : Fin 1 → Nat) a + S16.size a ≤ S1024.size a
  inb_S1024_S16_736 : ∀ a, (![736] : Fin 1 → Nat) a + S16.size a ≤ S1024.size a
  inb_S1024_S16_752 : ∀ a, (![752] : Fin 1 → Nat) a + S16.size a ≤ S1024.size a
  inb_S1024_S16_768 : ∀ a, (![768] : Fin 1 → Nat) a + S16.size a ≤ S1024.size a
  inb_S1024_S16_784 : ∀ a, (![784] : Fin 1 → Nat) a + S16.size a ≤ S1024.size a
  inb_S1024_S16_800 : ∀ a, (![800] : Fin 1 → Nat) a + S16.size a ≤ S1024.size a
  inb_S1024_S16_816 : ∀ a, (![816] : Fin 1 → Nat) a + S16.size a ≤ S1024.size a
  inb_S1024_S16_832 : ∀ a, (![832] : Fin 1 → Nat) a + S16.size a ≤ S1024.size a
  inb_S1024_S16_848 : ∀ a, (![848] : Fin 1 → Nat) a + S16.size a ≤ S1024.size a
  inb_S1024_S16_864 : ∀ a, (![864] : Fin 1 → Nat) a + S16.size a ≤ S1024.size a
  inb_S1024_S16_880 : ∀ a, (![880] : Fin 1 → Nat) a + S16.size a ≤ S1024.size a
  inb_S1024_S16_896 : ∀ a, (![896] : Fin 1 → Nat) a + S16.size a ≤ S1024.size a
  inb_S1024_S16_912 : ∀ a, (![912] : Fin 1 → Nat) a + S16.size a ≤ S1024.size a
  inb_S1024_S16_928 : ∀ a, (![928] : Fin 1 → Nat) a + S16.size a ≤ S1024.size a
  inb_S1024_S16_944 : ∀ a, (![944] : Fin 1 → Nat) a + S16.size a ≤ S1024.size a
  inb_S1024_S16_960 : ∀ a, (![960] : Fin 1 → Nat) a + S16.size a ≤ S1024.size a
  inb_S1024_S16_976 : ∀ a, (![976] : Fin 1 → Nat) a + S16.size a ≤ S1024.size a
  inb_S1024_S16_992 : ∀ a, (![992] : Fin 1 → Nat) a + S16.size a ≤ S1024.size a
  inb_S1024_S16_1008 : ∀ a, (![1008] : Fin 1 → Nat) a + S16.size a ≤ S1024.size a
  shapeCasts_S16384_S16384x1 : S16384.ShapeCasts S16384x1
  hcc0_scratch3 : 0 + S_.numel ≤ 3
  hcc0_scratch4 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024.size a ≤ S16384.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

class Facts : Prop extends Facts₀ where

variable [Facts]
-- ==== ReferenceIdeal.lean ====
abbrev S16384 : Shape := ⟨1, ![16384]⟩
abbrev S2x1 : Shape := ⟨2, ![2, 1]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S2x1, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x1, .f32⟩
  | .hbm, ⟨21, _⟩ => ⟨S16384x1, .i1⟩
  | .hbm, ⟨22, _⟩ => ⟨S_, .f32⟩
  | .hbm, ⟨23, _⟩ => ⟨S16384x1, .f32⟩
  | .hbm, ⟨24, _⟩ => ⟨S16384x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  gather_S2x1_S16384x1_S16384x1_1_0_n_n_0_1_11_wf : GatherDims.WF S2x1 S16384x1 S16384x1 [1] [0] [] [0] [] 1 ![1, 1]

variable [Facts₀]

def gather_S2x1_S16384x1_S16384x1_1_0_n_n_0_1_11 : GatherDims S2x1 S16384x1 S16384x1 where
  offsetDims := [1]
  collapsedSliceDims := [0]
  operandBatchingDims := []
  startIndicesBatchingDims := []
  startIndexMap := [0]
  indexVectorDim := 1
  sliceSizes := ![1, 1]
  wf := gather_S2x1_S16384x1_S16384x1_1_0_n_n_0_1_11_wf

class Facts : Prop extends Facts₀ where

variable [Facts]
-- ==== Proof.Spec.lean ====
/-
  The function both programs compute: a two-row, one-column table read through a vector of index words.
  Entry `r` of the result is the table's row 1 where the `r`-th index word is non-zero and its row 0 where
  that word is zero. On index words that are 0 or 1 (`InRange`) this is the table's row named by the word.
-/
import Idealize.ShloMosaic.PureOps
import Idealize.ShloMosaic.Lib.ValueIdx

noncomputable section

namespace Cert.Proof.Spec

open Idealize.ShloMosaic Idealize.ShloMosaic.ValueIdx

/-- The index vector's shape, the table's and the result's. -/
abbrev SIdx : Shape := ⟨1, ![16384]⟩
abbrev STab : Shape := ⟨2, ![2, 1]⟩
abbrev SOut : Shape := ⟨2, ![16384, 1]⟩

/-- Row `r` of the result: table row 0 where index word `r` is zero, table row 1 elsewhere. -/
def lookup {F : FTy → Type} (idx : IVec SIdx 32) (tab : FVec F STab .f32) : FVec F SOut .f32 :=
  fun j => if idx (ix1 (j 0)) = 0#32 then tab (ix2 0 0) else tab (ix2 1 0)

/-- The same function before the two re-layings: the table as a vector of its two entries, the result as a vector. -/
abbrev STabFlat : Shape := ⟨1, ![2]⟩
def lookupFlat {F : FTy → Type} (idx : IVec SIdx 32) (tab : FVec F STabFlat .f32) : FVec F SIdx .f32 :=
  fun r => if idx r = 0#32 then tab (ix1 0) else tab (ix1 1)

/-- Every index word names a row of the table: it is 0 or 1. -/
def InRange (idx : IVec SIdx 32) : Prop := ∀ i, idx i = 0#32 ∨ idx i = 1#32

end Cert.Proof.Spec

end
-- ==== Proof.KICommon.lean ====
/-
  The lookup kernel as the SparseCore launch sees it: one vector-subcore call on one SparseCore, sixteen tasks.
  Task `i` owns words `1024 i … 1024 i + 1023` of the index vector and of the result (chunk `i`), and reads the
  two-entry table whole, through a read share of its own. What the call hands over and takes back is stated here:
  the index vector and the table unchanged, the result at the lookup's value.
-/
import proofs.«207179_g33071248179625_cont_8to1_b_223_18_alg».proof.KernelIdeal
import proofs.«207179_g33071248179625_cont_8to1_b_223_18_alg».proof.Proof.Gen.KernelIdeal
import proofs.«207179_g33071248179625_cont_8to1_b_223_18_alg».proof.Proof.Gen.KernelIdeal.Skeleton
import proofs.«207179_g33071248179625_cont_8to1_b_223_18_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index vector, the table as given, the table as a vector of two, the result as a vector, the result as a column. -/
abbrev iLoc (d : Dev nD) : Loc nD τ sig := (SparseCore.T d).loc main_arg0
abbrev aLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev a' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev i' : DevRef τ sig := Proc.devRef .tc (main_arg0 : Ref sig .tc)

variable [FloatOps F]

/-- The first re-laying: the table `[2, 1]` as a vector of its two entries. -/
abbrev opFlat : HloOp τ sig (Elt F) := StableHlo.reshape main_arg1 main_v0 rfl shapeCasts_S2x1_S2
/-- The second: the result vector as a column. -/
abbrev opCol : HloOp τ sig (Elt F) := StableHlo.reshape main_v1 main_v2 rfl shapeCasts_S16384_S16384x1

/-- The launch valuation of device `d`. -/
def V0 (d : Dev nD) : Valuation τ sig (Elt F) := fun b => m (d, b)
/-- The table as the kernel is handed it: the first re-laying's result. -/
def tabV (d : Dev nD) : Buf (Elt F) (tLoc d) := (opFlat (F := F)).result (V0 m d) t'
/-- What the kernel leaves in the result vector: word `r` non-zero selects the table's second entry, zero its first. -/
def outV (d : Dev nD) : Buf (Elt F) (oLoc d) := Cert.Proof.Spec.lookupFlat (m (iLoc d)) (tabV m d)

/-! ## The sixteen chunks -/

theorem hdiv : 16 ∣ S16384.size 0 := ⟨1024, rfl⟩
/-- Chunk `i`: words `1024 i … 1024 i + 1023`. -/
abbrev chunk (i : Fin 16) : Rect S16384 := Rect.part (s := S16384) (a₀ := 0) hdiv i
abbrev chunkSet (i : Fin 16) : Finset S16384.Idx := (chunk i).set

/-! ## What the handshakes carry -/

abbrev iPts (d : Dev nD) : sProp 𝕄 := iLoc d ↦{fullShare} m (iLoc d)
abbrev tPts (d : Dev nD) : sProp 𝕄 := tLoc d ↦{fullShare} tabV m d
abbrev oPts (d : Dev nD) (f : Buf (Elt F) (oLoc d)) : sProp 𝕄 := oLoc d ↦{fullShare} f
abbrev iChunkPts (d : Dev nD) (i : Fin 16) : sProp 𝕄 := iLoc d ↦[chunkSet i]{fullShare} m (iLoc d)
abbrev tSharePts (d : Dev nD) (i : Fin 16) : sProp 𝕄 := tLoc d ↦{Transfers.shareTok fullShare 16 i} tabV m d
abbrev oChunkPts (d : Dev nD) (i : Fin 16) (f : Buf (Elt F) (oLoc d)) : sProp 𝕄 := oLoc d ↦[chunkSet i]{fullShare} f

/-- The one call takes the index vector, the flat table and the result vector whole; each task its chunk of the
    index vector and of the result and a read share of the table; they come back with the result at `outV`. -/
def P : (K (F := F)).Pay (nD := nD) (Val := Elt F) (Name := ℕ) (U := UU) where
  st := fun q d _ => match q with | 0 => iprop(iPts m d ∗ tPts m d ∗ oPts d (m (oLoc d)))
  dn := fun q d _ => match q with | 0 => iprop(iPts m d ∗ tPts m d ∗ oPts d (outV m d))
  go := fun q d _ i => match q with
    | 0 => iprop(iChunkPts m d (Fin.cast nSub_zero i) ∗ tSharePts m d (Fin.cast nSub_zero i) ∗ oChunkPts d (Fin.cast nSub_zero i) (m (oLoc d)))
  td := fun q d _ i => match q with
    | 0 => iprop(iChunkPts m d (Fin.cast nSub_zero i) ∗ tSharePts m d (Fin.cast nSub_zero i) ∗ oChunkPts d (Fin.cast nSub_zero i) (outV m d))
  x := fun _ _ => iprop(emp)

instance P_storable : (P (F := F) m).IsStorable where
  st q d _ := match q with
    | 0 => (inferInstance : BI.Storable (upEmb : UEmb _ 𝕄) iprop(iPts m d ∗ tPts m d ∗ oPts d (m (oLoc d))))
  dn q d _ := match q with
    | 0 => (inferInstance : BI.Storable (upEmb : UEmb _ 𝕄) iprop(iPts m d ∗ tPts m d ∗ oPts d (outV m d)))
  go q d _ i := match q with
    | 0 => (inferInstance : BI.Storable (upEmb : UEmb _ 𝕄)
        iprop(iChunkPts m d (Fin.cast nSub_zero i) ∗ tSharePts m d (Fin.cast nSub_zero i) ∗ oChunkPts d (Fin.cast nSub_zero i) (m (oLoc d))))
  td q d _ i := match q with
    | 0 => (inferInstance : BI.Storable (upEmb : UEmb _ 𝕄)
        iprop(iChunkPts m d (Fin.cast nSub_zero i) ∗ tSharePts m d (Fin.cast nSub_zero i) ∗ oChunkPts d (Fin.cast nSub_zero i) (outV m d)))

end Cert.Proof.KI

end
-- ==== Proof.KILaunch.lean ====
/-
  The launch of the lookup kernel: how the one SparseCore call's operands split among its sixteen tasks and
  gather back, what the TensorCore's @main does around the call (the table re-laid as a vector of two before it,
  the result vector re-laid as a column after it), and the run of the whole family of threads from the
  launch memory to a final memory whose result column is the lookup of the index vector in the table.
  The one task's body enters as a hypothesis.
-/
import proofs.«207179_g33071248179625_cont_8to1_b_223_18_alg».proof.Proof.KICommon
import Idealize.ShloMosaic.Lib.SparseCore.Launch
import Idealize.ShloMosaic.Lib.SparseCore.Threads
import Idealize.ShloMosaic.Lib.Transfers
import Idealize.ShloMosaic.Lib.StableHlo.Run
import Idealize.ShloMosaic.Lib.Pipeline.Kit
import Idealize.ShloMosaic.Lib.Tactic
import Idealize.ShloMosaic.Lib.Pipeline.Value
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The call's operands among the sixteen tasks -/

omit [FloatOps F] in
theorem chunks_disjoint : ∀ i ∈ (Finset.univ : Finset (Fin 16)), ∀ j ∈ (Finset.univ : Finset (Fin 16)), i ≠ j → Disjoint (chunkSet i) (chunkSet j) :=
  fun _ _ _ _ h => Rect.part_disjoint hdiv h
omit [FloatOps F] in
theorem chunks_cover : (Finset.univ : Finset (Fin 16)).biUnion chunkSet = Finset.univ := Rect.biUnion_part hdiv

omit [FloatOps F] in
/-- The index vector whole is its sixteen chunks. -/
theorem iPts_chunks (d : Dev nD) (f : Buf (Elt F) (iLoc d)) :
    (iLoc d ↦{fullShare} f : sProp 𝕄) = bigSep Finset.univ fun i : Fin 16 => iLoc d ↦[chunkSet i]{fullShare} f := by
  rw [← pointsTo_biUnion Finset.univ (ℓ := iLoc d) chunkSet chunks_disjoint, chunks_cover]; try rfl
omit [FloatOps F] in
/-- The result vector whole is its sixteen chunks. -/
theorem oPts_chunks (d : Dev nD) (f : Buf (Elt F) (oLoc d)) :
    (oLoc d ↦{fullShare} f : sProp 𝕄) = bigSep Finset.univ fun i : Fin 16 => oLoc d ↦[chunkSet i]{fullShare} f := by
  rw [← pointsTo_biUnion Finset.univ (ℓ := oLoc d) chunkSet chunks_disjoint, chunks_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The split: each task its chunk of the index vector and of the result and one read share of the flat table; what is
    left of the table's share stays behind and rejoins the sixteen when the tasks hand theirs back. -/
theorem vecSplit : (K (F := F)).VecSplit' (P m) 0 := by
  intro d c
  show iprop(iPts m d ∗ tPts m d ∗ oPts d (m (oLoc d))) ⊢ |={Set.univ}=> iprop(
      (bigSep Finset.univ fun i : Fin ((K (F := F)).nSub 0) =>
        iprop(iChunkPts m d (Fin.cast nSub_zero i) ∗ tSharePts m d (Fin.cast nSub_zero i) ∗ oChunkPts d (Fin.cast nSub_zero i) (m (oLoc d))))
      ∗ ((bigSep Finset.univ fun i : Fin ((K (F := F)).nSub 0) =>
          iprop(iChunkPts m d (Fin.cast nSub_zero i) ∗ tSharePts m d (Fin.cast nSub_zero i) ∗ oChunkPts d (Fin.cast nSub_zero i) (outV m d)))
          -∗ iprop(iPts m d ∗ tPts m d ∗ oPts d (outV m d))))
  rw [bigSep_tasks (F := F) (fun i => iprop(iChunkPts m d i ∗ tSharePts m d i ∗ oChunkPts d i (m (oLoc d)))),
    bigSep_tasks (F := F) (fun i => iprop(iChunkPts m d i ∗ tSharePts m d i ∗ oChunkPts d i (outV m d))), bigSep_sep', bigSep_sep', bigSep_sep', bigSep_sep']
  unfold iPts tPts oPts iChunkPts tSharePts oChunkPts
  rw [iPts_chunks, oPts_chunks, oPts_chunks]
  iintro ⟨Hi, Ht, Ho⟩
  ihave Ht' := (Transfers.pointsTo_toks_split fullShare 16) $$ Ht
  icases Ht' with ⟨Hrem, Htoks⟩
  imodintro
  isplitl [Hi Htoks Ho]
  · isplitl [Hi]; · iexact Hi
    isplitl [Htoks]; · iexact Htoks
    iexact Ho
  iintro ⟨Hi, Htoks, Ho⟩
  isplitl [Hi]; · iexact Hi
  isplitl [Hrem Htoks]
  · iapply (Transfers.pointsTo_toks_join fullShare 16)
    isplitl [Hrem]; · iexact Hrem
    iexact Htoks
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's five arrays, all unscoped. -/
abbrev S5 : Finset (DevRef τ sig) := {i', a', t', o', r'}

omit [FloatOps F] in
theorem held_S5 (d : Dev nD) (W : Valuation τ sig (Elt F)) :
    (held (T d) S5 W : sProp 𝕄) = iprop((iLoc d ↦{fullShare} W i') ∗ (aLoc d ↦{fullShare} W a') ∗ (tLoc d ↦{fullShare} W t')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (aLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit [FloatOps F] in
theorem unscoped_held (d : Dev nD) : (unscopedBufs d (fun b => m ((SparseCore.T d).loc b)) : sProp 𝕄) = held (T d) S5 (V0 m d) := by
  rw [unscopedBufs_eq, held_S5]; rfl

/-- After the first re-laying; after the call, the result vector at the lookup's value; after the second re-laying. -/
def V1 (d : Dev nD) : Valuation τ sig (Elt F) := (opFlat (F := F)).result (V0 m d)
def V2 (d : Dev nD) : Valuation τ sig (Elt F) := Function.update (V1 m d) o' (outV m d)
def resV (d : Dev nD) : Buf (Elt F) (rLoc d) := (opCol (F := F)).result (V2 m d) r'

theorem V1_i (d : Dev nD) : V1 m d i' = m (iLoc d) :=
  (opFlat (F := F)).result_of_not_mem (V0 m d) (b := i') (show i' ∉ ({t'} : Finset (DevRef τ sig)) by decide)
theorem V1_a (d : Dev nD) : V1 m d a' = m (aLoc d) :=
  (opFlat (F := F)).result_of_not_mem (V0 m d) (b := a') (show a' ∉ ({t'} : Finset (DevRef τ sig)) by decide)
theorem V1_t (d : Dev nD) : V1 m d t' = tabV m d := rfl
theorem V1_o (d : Dev nD) : V1 m d o' = m (oLoc d) :=
  (opFlat (F := F)).result_of_not_mem (V0 m d) (b := o') (show o' ∉ ({t'} : Finset (DevRef τ sig)) by decide)
theorem V1_r (d : Dev nD) : V1 m d r' = m (rLoc d) :=
  (opFlat (F := F)).result_of_not_mem (V0 m d) (b := r') (show r' ∉ ({t'} : Finset (DevRef τ sig)) by decide)

theorem V2_i (d : Dev nD) : V2 m d i' = m (iLoc d) := (Function.update_of_ne (show i' ≠ o' by decide) _ _).trans (V1_i m d)
theorem V2_a (d : Dev nD) : V2 m d a' = m (aLoc d) := (Function.update_of_ne (show a' ≠ o' by decide) _ _).trans (V1_a m d)
theorem V2_t (d : Dev nD) : V2 m d t' = tabV m d := Function.update_of_ne (show t' ≠ o' by decide) _ _
theorem V2_o (d : Dev nD) : V2 m d o' = outV m d := Function.update_self _ _ _
theorem V2_r (d : Dev nD) : V2 m d r' = m (rLoc d) := (Function.update_of_ne (show r' ≠ o' by decide) _ _).trans (V1_r m d)

theorem V3_i (d : Dev nD) : (opCol (F := F)).result (V2 m d) i' = m (iLoc d) :=
  ((opCol (F := F)).result_of_not_mem (V2 m d) (b := i') (show i' ∉ ({r'} : Finset (DevRef τ sig)) by decide)).trans (V2_i m d)
theorem V3_a (d : Dev nD) : (opCol (F := F)).result (V2 m d) a' = m (aLoc d) :=
  ((opCol (F := F)).result_of_not_mem (V2 m d) (b := a') (show a' ∉ ({r'} : Finset (DevRef τ sig)) by decide)).trans (V2_a m d)

theorem st0_eq (d : Dev nD) : (bigSep Finset.univ fun c : Fin ((K (F := F)).nCore 0) => (P m).st 0 d c) = iprop(iPts m d ∗ tPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ tPts m d ∗ oPts d (outV m d)) :=
  bigSep_univ_of_subsingleton (0 : Fin 1)

theorem hFlat : (opFlat (F := F)).bufs ⊆ S5 := show ({a', t'} : Finset (DevRef τ sig)) ⊆ S5 by decide
theorem hCol : (opCol (F := F)).bufs ⊆ S5 := show ({o', r'} : Finset (DevRef τ sig)) ⊆ S5 by decide

/-- What @main leaves the claim: the index vector and the table at their launch contents, the result column at the
    second re-laying of what the call left. -/
abbrev FIN (d : Dev nD) : sProp 𝕄 := iprop(iPts m d ∗ (aLoc d ↦{fullShare} m (aLoc d)) ∗ (rLoc d ↦{fullShare} resV m d))

/-- @main on device `d`'s TensorCore: the table re-laid as a vector of two, the call from the index vector, that
    vector and the result vector, the result vector re-laid as a column. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first re-laying, over the five arrays
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  ihave Hh := (Entails.of_eq (held_S5 (F := F) d _)) $$ Hheld
  icases Hh with ⟨Hi, Ha, Ht, Ho, Hr⟩
  rw [wp_ret]; imodintro
  -- the call: the index vector, the flat table and the result vector to SparseCore 0 and back
  iapply ((K (F := F)).wp_run (D (F := F)) 𝒱 (EH := EH) (P := P m) κ d 0) $$ [Hst Hi Ha Ht Ho Hr Hb]
  isplitr; · iexact Hctx
  isplitl [Hst]; · iexact Hst
  isplitl [Hi Ht Ho]
  · rw [st0_eq]
    isplitl [Hi]; · iapply (Entails.of_eq (congrArg (fun f => (iLoc d ↦{fullShare} f : sProp 𝕄)) (V1_i m d))); iexact Hi
    isplitl [Ht]; · iexact Ht
    iapply (Entails.of_eq (congrArg (fun f => (oLoc d ↦{fullShare} f : sProp 𝕄)) (V1_o m d))); iexact Ho
  iintro ⟨Hst, Hdn⟩
  ihave Hdn' := (Entails.of_eq (dn0_eq m d)) $$ Hdn
  icases Hdn' with ⟨Hi, Ht, Ho⟩
  -- the second re-laying, over the five arrays
  iapply (wp_hlo_within 𝒱 (SparseCore.T d) none Set.univ (op := opCol) (S := S5) hCol (V := V2 m d)) $$ [Hb Hi Ha Ht Ho Hr]
  · isplitl [Hb]; · iexact Hb
    rw [held_S5, V2_i, V2_a, V2_t, V2_o, V2_r]
    isplitl [Hi]; · iexact Hi
    isplitl [Ha]; · iapply (Entails.of_eq (congrArg (fun f => (aLoc d ↦{fullShare} f : sProp 𝕄)) (V1_a m d))); iexact Ha
    isplitl [Ht]; · iexact Ht
    isplitl [Ho]; · iexact Ho
    iapply (Entails.of_eq (congrArg (fun f => (rLoc d ↦{fullShare} f : sProp 𝕄)) (V1_r m d))); iexact Hr
  iintro ⟨Hb, Hheld⟩
  ihave Hh := (Entails.of_eq (held_S5 (F := F) d _)) $$ Hheld
  icases Hh with ⟨Hi, Ha, -, -, Hr⟩
  rw [wp_ret]; imodintro; imodintro
  isplitl [Hst]; · iexact Hst
  isplitl [Hi]; · iapply (Entails.of_eq (congrArg (fun f => (iLoc d ↦{fullShare} f : sProp 𝕄)) (V3_i m d))); iexact Hi
  isplitl [Ha]; · iapply (Entails.of_eq (congrArg (fun f => (aLoc d ↦{fullShare} f : sProp 𝕄)) (V3_a m d))); iexact Ha
  iexact Hr

/-! ## The final memory -/

def fq (d : Dev nD) (s' : Phys nD τ sig (Elt F)) : Prop :=
  s'.mem.mem (rLoc d) = resV m d ∧ s'.mem.mem (iLoc d) = m (iLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Hi, Ha, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := resV m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop :=
  fun r => ∀ c : Dev nD, r.2.mem (rLoc c) = resV m c ∧ r.2.mem (iLoc c) = m (iLoc c) ∧ r.2.mem (aLoc c) = m (aLoc c)

/-- The run of the whole family of threads, given the one task's body. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The two re-layings read at an index -/

omit [FloatOps F] in
/-- A vector re-laid as a column reads, at row `j 0`, the vector's word `j 0`. -/
theorem cast_col {α : Type} (x : S16384.Idx → α) (j : S16384x1.Idx) :
    shapeCast S16384x1 x shapeCasts_S16384_S16384x1 j = x (ValueIdx.ix1 (j 0)) :=
  shapeCast_apply x _ j _ (by
    rw [Shape.rowMajor_val_one, Shape.rowMajor_val_two]
    show (j 0).val = (j 0).val * 1 + (j 1).val
    have h : (j 1).val < 1 := (j 1).isLt
    omega)

omit [FloatOps F] in
/-- A two-row, one-column table re-laid as a vector of two reads, at `i`, the table's row `i`. -/
theorem cast_flat {α : Type} (x : S2x1.Idx → α) (i : Fin 2) :
    shapeCast S2 x shapeCasts_S2x1_S2 (ValueIdx.ix1 i) = x (ValueIdx.ix2 i 0) :=
  shapeCast_apply x _ _ _ (by
    rw [Shape.rowMajor_val_two, Shape.rowMajor_val_one]
    show i.val * 1 + 0 = i.val
    omega)

omit [FloatOps F] in
/-- The lookup through a flat table whose two entries are the table's two rows is the lookup through the table. -/
theorem lookupFlat_lookup (idx : IVec Cert.Proof.Spec.SIdx 32) (tf : FVec F Cert.Proof.Spec.STabFlat .f32) (tb : FVec F Cert.Proof.Spec.STab .f32)
    (h0 : tf (ValueIdx.ix1 0) = tb (ValueIdx.ix2 0 0)) (h1 : tf (ValueIdx.ix1 1) = tb (ValueIdx.ix2 1 0)) (j : Cert.Proof.Spec.SOut.Idx) :
    Cert.Proof.Spec.lookupFlat idx tf (ValueIdx.ix1 (j 0)) = Cert.Proof.Spec.lookup idx tb j := by
  unfold Cert.Proof.Spec.lookupFlat Cert.Proof.Spec.lookup
  rw [h0, h1]

/-- The flat table is the table's two entries in row-major order. -/
theorem tabV_eq (d : Dev nD) : tabV m d = fun i => shapeCast S2 (m (aLoc d)) shapeCasts_S2x1_S2 i :=
  StableHlo.reshape_result main_arg1 main_v0 rfl shapeCasts_S2x1_S2 _ _ (V0 m d)

/-- The result column is the result vector's words in row-major order. -/
theorem resV_cast (d : Dev nD) : resV m d = fun j => shapeCast S16384x1 (outV m d) shapeCasts_S16384_S16384x1 j :=
  (StableHlo.reshape_result main_v1 main_v2 rfl shapeCasts_S16384_S16384x1 _ _ (V2 m d)).trans (by rw [V2_o]; rfl)

/-- The result column is the lookup of the index vector in the table. -/
theorem resV_eq (d : Dev nD) : resV m d = Cert.Proof.Spec.lookup (m (iLoc d)) (m (aLoc d)) := by
  rw [resV_cast]
  funext j
  show shapeCast S16384x1 (outV m d) shapeCasts_S16384_S16384x1 j = _
  rw [cast_col]
  have e0 : tabV m d (ValueIdx.ix1 0) = m (aLoc d) (ValueIdx.ix2 0 0) := by rw [tabV_eq]; exact cast_flat _ 0
  have e1 : tabV m d (ValueIdx.ix1 1) = m (aLoc d) (ValueIdx.ix2 1 0) := by rw [tabV_eq]; exact cast_flat _ 1
  exact lookupFlat_lookup (m (iLoc d)) (tabV m d) (m (aLoc d)) e0 e1 j

end Cert.Proof.KI

end
-- ==== Proof.KBCommon.lean ====
/-
  The lookup kernel as the SparseCore launch sees it: one vector-subcore call on one SparseCore, sixteen tasks.
  Task `i` owns words `1024 i … 1024 i + 1023` of the index vector and of the result (chunk `i`), and reads the
  two-entry table whole, through a read share of its own. What the call hands over and takes back is stated here:
  the index vector and the table unchanged, the result at the lookup's value.
-/
import proofs.«207179_g33071248179625_cont_8to1_b_223_18_alg».proof.Kernel
import proofs.«207179_g33071248179625_cont_8to1_b_223_18_alg».proof.Proof.Gen.Kernel
import proofs.«207179_g33071248179625_cont_8to1_b_223_18_alg».proof.Proof.Gen.Kernel.Skeleton
import proofs.«207179_g33071248179625_cont_8to1_b_223_18_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index vector, the table as given, the table as a vector of two, the result as a vector, the result as a column. -/
abbrev iLoc (d : Dev nD) : Loc nD τ sig := (SparseCore.T d).loc main_arg0
abbrev aLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev a' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev i' : DevRef τ sig := Proc.devRef .tc (main_arg0 : Ref sig .tc)

variable [FloatOps F]

/-- The first re-laying: the table `[2, 1]` as a vector of its two entries. -/
abbrev opFlat : HloOp τ sig (Elt F) := StableHlo.reshape main_arg1 main_v0 rfl shapeCasts_S2x1_S2
/-- The second: the result vector as a column. -/
abbrev opCol : HloOp τ sig (Elt F) := StableHlo.reshape main_v1 main_v2 rfl shapeCasts_S16384_S16384x1

/-- The launch valuation of device `d`. -/
def V0 (d : Dev nD) : Valuation τ sig (Elt F) := fun b => m (d, b)
/-- The table as the kernel is handed it: the first re-laying's result. -/
def tabV (d : Dev nD) : Buf (Elt F) (tLoc d) := (opFlat (F := F)).result (V0 m d) t'
/-- What the kernel leaves in the result vector: word `r` non-zero selects the table's second entry, zero its first. -/
def outV (d : Dev nD) : Buf (Elt F) (oLoc d) := Cert.Proof.Spec.lookupFlat (m (iLoc d)) (tabV m d)

/-! ## The sixteen chunks -/

theorem hdiv : 16 ∣ S16384.size 0 := ⟨1024, rfl⟩
/-- Chunk `i`: words `1024 i … 1024 i + 1023`. -/
abbrev chunk (i : Fin 16) : Rect S16384 := Rect.part (s := S16384) (a₀ := 0) hdiv i
abbrev chunkSet (i : Fin 16) : Finset S16384.Idx := (chunk i).set

/-! ## What the handshakes carry -/

abbrev iPts (d : Dev nD) : sProp 𝕄 := iLoc d ↦{fullShare} m (iLoc d)
abbrev tPts (d : Dev nD) : sProp 𝕄 := tLoc d ↦{fullShare} tabV m d
abbrev oPts (d : Dev nD) (f : Buf (Elt F) (oLoc d)) : sProp 𝕄 := oLoc d ↦{fullShare} f
abbrev iChunkPts (d : Dev nD) (i : Fin 16) : sProp 𝕄 := iLoc d ↦[chunkSet i]{fullShare} m (iLoc d)
abbrev tSharePts (d : Dev nD) (i : Fin 16) : sProp 𝕄 := tLoc d ↦{Transfers.shareTok fullShare 16 i} tabV m d
abbrev oChunkPts (d : Dev nD) (i : Fin 16) (f : Buf (Elt F) (oLoc d)) : sProp 𝕄 := oLoc d ↦[chunkSet i]{fullShare} f

/-- The one call takes the index vector, the flat table and the result vector whole; each task its chunk of the
    index vector and of the result and a read share of the table; they come back with the result at `outV`. -/
def P : (K (F := F)).Pay (nD := nD) (Val := Elt F) (Name := ℕ) (U := UU) where
  st := fun q d _ => match q with | 0 => iprop(iPts m d ∗ tPts m d ∗ oPts d (m (oLoc d)))
  dn := fun q d _ => match q with | 0 => iprop(iPts m d ∗ tPts m d ∗ oPts d (outV m d))
  go := fun q d _ i => match q with
    | 0 => iprop(iChunkPts m d (Fin.cast nSub_zero i) ∗ tSharePts m d (Fin.cast nSub_zero i) ∗ oChunkPts d (Fin.cast nSub_zero i) (m (oLoc d)))
  td := fun q d _ i => match q with
    | 0 => iprop(iChunkPts m d (Fin.cast nSub_zero i) ∗ tSharePts m d (Fin.cast nSub_zero i) ∗ oChunkPts d (Fin.cast nSub_zero i) (outV m d))
  x := fun _ _ => iprop(emp)

instance P_storable : (P (F := F) m).IsStorable where
  st q d _ := match q with
    | 0 => (inferInstance : BI.Storable (upEmb : UEmb _ 𝕄) iprop(iPts m d ∗ tPts m d ∗ oPts d (m (oLoc d))))
  dn q d _ := match q with
    | 0 => (inferInstance : BI.Storable (upEmb : UEmb _ 𝕄) iprop(iPts m d ∗ tPts m d ∗ oPts d (outV m d)))
  go q d _ i := match q with
    | 0 => (inferInstance : BI.Storable (upEmb : UEmb _ 𝕄)
        iprop(iChunkPts m d (Fin.cast nSub_zero i) ∗ tSharePts m d (Fin.cast nSub_zero i) ∗ oChunkPts d (Fin.cast nSub_zero i) (m (oLoc d))))
  td q d _ i := match q with
    | 0 => (inferInstance : BI.Storable (upEmb : UEmb _ 𝕄)
        iprop(iChunkPts m d (Fin.cast nSub_zero i) ∗ tSharePts m d (Fin.cast nSub_zero i) ∗ oChunkPts d (Fin.cast nSub_zero i) (outV m d)))

end Cert.Proof.KB

end
-- ==== Proof.KBLaunch.lean ====
/-
  The launch of the lookup kernel: how the one SparseCore call's operands split among its sixteen tasks and
  gather back, what the TensorCore's @main does around the call (the table re-laid as a vector of two before it,
  the result vector re-laid as a column after it), and the run of the whole family of threads from the
  launch memory to a final memory whose result column is the lookup of the index vector in the table.
  The one task's body enters as a hypothesis.
-/
import proofs.«207179_g33071248179625_cont_8to1_b_223_18_alg».proof.Proof.KBCommon
import Idealize.ShloMosaic.Lib.SparseCore.Launch
import Idealize.ShloMosaic.Lib.SparseCore.Threads
import Idealize.ShloMosaic.Lib.Transfers
import Idealize.ShloMosaic.Lib.StableHlo.Run
import Idealize.ShloMosaic.Lib.Pipeline.Kit
import Idealize.ShloMosaic.Lib.Tactic
import Idealize.ShloMosaic.Lib.Pipeline.Value
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The call's operands among the sixteen tasks -/

omit [FloatOps F] in
theorem chunks_disjoint : ∀ i ∈ (Finset.univ : Finset (Fin 16)), ∀ j ∈ (Finset.univ : Finset (Fin 16)), i ≠ j → Disjoint (chunkSet i) (chunkSet j) :=
  fun _ _ _ _ h => Rect.part_disjoint hdiv h
omit [FloatOps F] in
theorem chunks_cover : (Finset.univ : Finset (Fin 16)).biUnion chunkSet = Finset.univ := Rect.biUnion_part hdiv

omit [FloatOps F] in
/-- The index vector whole is its sixteen chunks. -/
theorem iPts_chunks (d : Dev nD) (f : Buf (Elt F) (iLoc d)) :
    (iLoc d ↦{fullShare} f : sProp 𝕄) = bigSep Finset.univ fun i : Fin 16 => iLoc d ↦[chunkSet i]{fullShare} f := by
  rw [← pointsTo_biUnion Finset.univ (ℓ := iLoc d) chunkSet chunks_disjoint, chunks_cover]; try rfl
omit [FloatOps F] in
/-- The result vector whole is its sixteen chunks. -/
theorem oPts_chunks (d : Dev nD) (f : Buf (Elt F) (oLoc d)) :
    (oLoc d ↦{fullShare} f : sProp 𝕄) = bigSep Finset.univ fun i : Fin 16 => oLoc d ↦[chunkSet i]{fullShare} f := by
  rw [← pointsTo_biUnion Finset.univ (ℓ := oLoc d) chunkSet chunks_disjoint, chunks_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The split: each task its chunk of the index vector and of the result and one read share of the flat table; what is
    left of the table's share stays behind and rejoins the sixteen when the tasks hand theirs back. -/
theorem vecSplit : (K (F := F)).VecSplit' (P m) 0 := by
  intro d c
  show iprop(iPts m d ∗ tPts m d ∗ oPts d (m (oLoc d))) ⊢ |={Set.univ}=> iprop(
      (bigSep Finset.univ fun i : Fin ((K (F := F)).nSub 0) =>
        iprop(iChunkPts m d (Fin.cast nSub_zero i) ∗ tSharePts m d (Fin.cast nSub_zero i) ∗ oChunkPts d (Fin.cast nSub_zero i) (m (oLoc d))))
      ∗ ((bigSep Finset.univ fun i : Fin ((K (F := F)).nSub 0) =>
          iprop(iChunkPts m d (Fin.cast nSub_zero i) ∗ tSharePts m d (Fin.cast nSub_zero i) ∗ oChunkPts d (Fin.cast nSub_zero i) (outV m d)))
          -∗ iprop(iPts m d ∗ tPts m d ∗ oPts d (outV m d))))
  rw [bigSep_tasks (F := F) (fun i => iprop(iChunkPts m d i ∗ tSharePts m d i ∗ oChunkPts d i (m (oLoc d)))),
    bigSep_tasks (F := F) (fun i => iprop(iChunkPts m d i ∗ tSharePts m d i ∗ oChunkPts d i (outV m d))), bigSep_sep', bigSep_sep', bigSep_sep', bigSep_sep']
  unfold iPts tPts oPts iChunkPts tSharePts oChunkPts
  rw [iPts_chunks, oPts_chunks, oPts_chunks]
  iintro ⟨Hi, Ht, Ho⟩
  ihave Ht' := (Transfers.pointsTo_toks_split fullShare 16) $$ Ht
  icases Ht' with ⟨Hrem, Htoks⟩
  imodintro
  isplitl [Hi Htoks Ho]
  · isplitl [Hi]; · iexact Hi
    isplitl [Htoks]; · iexact Htoks
    iexact Ho
  iintro ⟨Hi, Htoks, Ho⟩
  isplitl [Hi]; · iexact Hi
  isplitl [Hrem Htoks]
  · iapply (Transfers.pointsTo_toks_join fullShare 16)
    isplitl [Hrem]; · iexact Hrem
    iexact Htoks
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's five arrays, all unscoped. -/
abbrev S5 : Finset (DevRef τ sig) := {i', a', t', o', r'}

omit [FloatOps F] in
theorem held_S5 (d : Dev nD) (W : Valuation τ sig (Elt F)) :
    (held (T d) S5 W : sProp 𝕄) = iprop((iLoc d ↦{fullShare} W i') ∗ (aLoc d ↦{fullShare} W a') ∗ (tLoc d ↦{fullShare} W t')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (aLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

omit [FloatOps F] in
theorem unscoped_held (d : Dev nD) : (unscopedBufs d (fun b => m ((SparseCore.T d).loc b)) : sProp 𝕄) = held (T d) S5 (V0 m d) := by
  rw [unscopedBufs_eq, held_S5]; rfl

/-- After the first re-laying; after the call, the result vector at the lookup's value; after the second re-laying. -/
def V1 (d : Dev nD) : Valuation τ sig (Elt F) := (opFlat (F := F)).result (V0 m d)
def V2 (d : Dev nD) : Valuation τ sig (Elt F) := Function.update (V1 m d) o' (outV m d)
def resV (d : Dev nD) : Buf (Elt F) (rLoc d) := (opCol (F := F)).result (V2 m d) r'

theorem V1_i (d : Dev nD) : V1 m d i' = m (iLoc d) :=
  (opFlat (F := F)).result_of_not_mem (V0 m d) (b := i') (show i' ∉ ({t'} : Finset (DevRef τ sig)) by decide)
theorem V1_a (d : Dev nD) : V1 m d a' = m (aLoc d) :=
  (opFlat (F := F)).result_of_not_mem (V0 m d) (b := a') (show a' ∉ ({t'} : Finset (DevRef τ sig)) by decide)
theorem V1_t (d : Dev nD) : V1 m d t' = tabV m d := rfl
theorem V1_o (d : Dev nD) : V1 m d o' = m (oLoc d) :=
  (opFlat (F := F)).result_of_not_mem (V0 m d) (b := o') (show o' ∉ ({t'} : Finset (DevRef τ sig)) by decide)
theorem V1_r (d : Dev nD) : V1 m d r' = m (rLoc d) :=
  (opFlat (F := F)).result_of_not_mem (V0 m d) (b := r') (show r' ∉ ({t'} : Finset (DevRef τ sig)) by decide)

theorem V2_i (d : Dev nD) : V2 m d i' = m (iLoc d) := (Function.update_of_ne (show i' ≠ o' by decide) _ _).trans (V1_i m d)
theorem V2_a (d : Dev nD) : V2 m d a' = m (aLoc d) := (Function.update_of_ne (show a' ≠ o' by decide) _ _).trans (V1_a m d)
theorem V2_t (d : Dev nD) : V2 m d t' = tabV m d := Function.update_of_ne (show t' ≠ o' by decide) _ _
theorem V2_o (d : Dev nD) : V2 m d o' = outV m d := Function.update_self _ _ _
theorem V2_r (d : Dev nD) : V2 m d r' = m (rLoc d) := (Function.update_of_ne (show r' ≠ o' by decide) _ _).trans (V1_r m d)

theorem V3_i (d : Dev nD) : (opCol (F := F)).result (V2 m d) i' = m (iLoc d) :=
  ((opCol (F := F)).result_of_not_mem (V2 m d) (b := i') (show i' ∉ ({r'} : Finset (DevRef τ sig)) by decide)).trans (V2_i m d)
theorem V3_a (d : Dev nD) : (opCol (F := F)).result (V2 m d) a' = m (aLoc d) :=
  ((opCol (F := F)).result_of_not_mem (V2 m d) (b := a') (show a' ∉ ({r'} : Finset (DevRef τ sig)) by decide)).trans (V2_a m d)

theorem st0_eq (d : Dev nD) : (bigSep Finset.univ fun c : Fin ((K (F := F)).nCore 0) => (P m).st 0 d c) = iprop(iPts m d ∗ tPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ tPts m d ∗ oPts d (outV m d)) :=
  bigSep_univ_of_subsingleton (0 : Fin 1)

theorem hFlat : (opFlat (F := F)).bufs ⊆ S5 := show ({a', t'} : Finset (DevRef τ sig)) ⊆ S5 by decide
theorem hCol : (opCol (F := F)).bufs ⊆ S5 := show ({o', r'} : Finset (DevRef τ sig)) ⊆ S5 by decide

/-- What @main leaves the claim: the index vector and the table at their launch contents, the result column at the
    second re-laying of what the call left. -/
abbrev FIN (d : Dev nD) : sProp 𝕄 := iprop(iPts m d ∗ (aLoc d ↦{fullShare} m (aLoc d)) ∗ (rLoc d ↦{fullShare} resV m d))

/-- @main on device `d`'s TensorCore: the table re-laid as a vector of two, the call from the index vector, that
    vector and the result vector, the result vector re-laid as a column. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first re-laying, over the five arrays
  iapply (wp_hlo_within 𝒱 (SparseCore.T d) none Set.univ (op := opFlat) (S := S5) hFlat (V := V0 m d)) $$ [Hb Hheld]
  · isplitl [Hb]; · iexact Hb
    iexact Hheld
  iintro ⟨Hb, Hheld⟩
  ihave Hh := (Entails.of_eq (held_S5 (F := F) d _)) $$ Hheld
  icases Hh with ⟨Hi, Ha, Ht, Ho, Hr⟩
  rw [wp_ret]; imodintro
  -- the call: the index vector, the flat table and the result vector to SparseCore 0 and back
  iapply ((K (F := F)).wp_run (D (F := F)) 𝒱 (EH := EH) (P := P m) κ d 0) $$ [Hst Hi Ha Ht Ho Hr Hb]
  isplitr; · iexact Hctx
  isplitl [Hst]; · iexact Hst
  isplitl [Hi Ht Ho]
  · rw [st0_eq]
    isplitl [Hi]; · iapply (Entails.of_eq (congrArg (fun f => (iLoc d ↦{fullShare} f : sProp 𝕄)) (V1_i m d))); iexact Hi
    isplitl [Ht]; · iexact Ht
    iapply (Entails.of_eq (congrArg (fun f => (oLoc d ↦{fullShare} f : sProp 𝕄)) (V1_o m d))); iexact Ho
  iintro ⟨Hst, Hdn⟩
  ihave Hdn' := (Entails.of_eq (dn0_eq m d)) $$ Hdn
  icases Hdn' with ⟨Hi, Ht, Ho⟩
  -- the second re-laying, over the five arrays
  iapply (wp_hlo_within 𝒱 (SparseCore.T d) none Set.univ (op := opCol) (S := S5) hCol (V := V2 m d)) $$ [Hb Hi Ha Ht Ho Hr]
  · isplitl [Hb]; · iexact Hb
    rw [held_S5, V2_i, V2_a, V2_t, V2_o, V2_r]
    isplitl [Hi]; · iexact Hi
    isplitl [Ha]; · iapply (Entails.of_eq (congrArg (fun f => (aLoc d ↦{fullShare} f : sProp 𝕄)) (V1_a m d))); iexact Ha
    isplitl [Ht]; · iexact Ht
    isplitl [Ho]; · iexact Ho
    iapply (Entails.of_eq (congrArg (fun f => (rLoc d ↦{fullShare} f : sProp 𝕄)) (V1_r m d))); iexact Hr
  iintro ⟨Hb, Hheld⟩
  ihave Hh := (Entails.of_eq (held_S5 (F := F) d _)) $$ Hheld
  icases Hh with ⟨Hi, Ha, -, -, Hr⟩
  rw [wp_ret]; imodintro; imodintro
  isplitl [Hst]; · iexact Hst
  isplitl [Hi]; · iapply (Entails.of_eq (congrArg (fun f => (iLoc d ↦{fullShare} f : sProp 𝕄)) (V3_i m d))); iexact Hi
  isplitl [Ha]; · iapply (Entails.of_eq (congrArg (fun f => (aLoc d ↦{fullShare} f : sProp 𝕄)) (V3_a m d))); iexact Ha
  iexact Hr

/-! ## The final memory -/

def fq (d : Dev nD) (s' : Phys nD τ sig (Elt F)) : Prop :=
  s'.mem.mem (rLoc d) = resV m d ∧ s'.mem.mem (iLoc d) = m (iLoc d) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Hi, Ha, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := rLoc d) (I := Finset.univ) (q := fullShare) (f := resV m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop :=
  fun r => ∀ c : Dev nD, r.2.mem (rLoc c) = resV m c ∧ r.2.mem (iLoc c) = m (iLoc c) ∧ r.2.mem (aLoc c) = m (aLoc c)

/-- The run of the whole family of threads, given the one task's body. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

/-! ## The two re-layings read at an index -/

omit [FloatOps F] in
/-- A vector re-laid as a column reads, at row `j 0`, the vector's word `j 0`. -/
theorem cast_col {α : Type} (x : S16384.Idx → α) (j : S16384x1.Idx) :
    shapeCast S16384x1 x shapeCasts_S16384_S16384x1 j = x (ValueIdx.ix1 (j 0)) :=
  shapeCast_apply x _ j _ (by
    rw [Shape.rowMajor_val_one, Shape.rowMajor_val_two]
    show (j 0).val = (j 0).val * 1 + (j 1).val
    have h : (j 1).val < 1 := (j 1).isLt
    omega)

omit [FloatOps F] in
/-- A two-row, one-column table re-laid as a vector of two reads, at `i`, the table's row `i`. -/
theorem cast_flat {α : Type} (x : S2x1.Idx → α) (i : Fin 2) :
    shapeCast S2 x shapeCasts_S2x1_S2 (ValueIdx.ix1 i) = x (ValueIdx.ix2 i 0) :=
  shapeCast_apply x _ _ _ (by
    rw [Shape.rowMajor_val_two, Shape.rowMajor_val_one]
    show i.val * 1 + 0 = i.val
    omega)

omit [FloatOps F] in
/-- The lookup through a flat table whose two entries are the table's two rows is the lookup through the table. -/
theorem lookupFlat_lookup (idx : IVec Cert.Proof.Spec.SIdx 32) (tf : FVec F Cert.Proof.Spec.STabFlat .f32) (tb : FVec F Cert.Proof.Spec.STab .f32)
    (h0 : tf (ValueIdx.ix1 0) = tb (ValueIdx.ix2 0 0)) (h1 : tf (ValueIdx.ix1 1) = tb (ValueIdx.ix2 1 0)) (j : Cert.Proof.Spec.SOut.Idx) :
    Cert.Proof.Spec.lookupFlat idx tf (ValueIdx.ix1 (j 0)) = Cert.Proof.Spec.lookup idx tb j := by
  unfold Cert.Proof.Spec.lookupFlat Cert.Proof.Spec.lookup
  rw [h0, h1]

/-- The flat table is the table's two entries in row-major order. -/
theorem tabV_eq (d : Dev nD) : tabV m d = fun i => shapeCast S2 (m (aLoc d)) shapeCasts_S2x1_S2 i :=
  StableHlo.reshape_result main_arg1 main_v0 rfl shapeCasts_S2x1_S2 _ _ (V0 m d)

/-- The result column is the result vector's words in row-major order. -/
theorem resV_cast (d : Dev nD) : resV m d = fun j => shapeCast S16384x1 (outV m d) shapeCasts_S16384_S16384x1 j :=
  (StableHlo.reshape_result main_v1 main_v2 rfl shapeCasts_S16384_S16384x1 _ _ (V2 m d)).trans (by rw [V2_o]; rfl)

/-- The result column is the lookup of the index vector in the table. -/
theorem resV_eq (d : Dev nD) : resV m d = Cert.Proof.Spec.lookup (m (iLoc d)) (m (aLoc d)) := by
  rw [resV_cast]
  funext j
  show shapeCast S16384x1 (outV m d) shapeCasts_S16384_S16384x1 j = _
  rw [cast_col]
  have e0 : tabV m d (ValueIdx.ix1 0) = m (aLoc d) (ValueIdx.ix2 0 0) := by rw [tabV_eq]; exact cast_flat _ 0
  have e1 : tabV m d (ValueIdx.ix1 1) = m (aLoc d) (ValueIdx.ix2 1 0) := by rw [tabV_eq]; exact cast_flat _ 1
  exact lookupFlat_lookup (m (iLoc d)) (tabV m d) (m (aLoc d)) e0 e1 j

end Cert.Proof.KB

end
-- ==== Proof.KIValue.lean ====
/-
  What one task's stores and copies leave, as plain functions. The result scratch is written in 64 groups of 16 words;
  group `k` holds, at lane `x`, the table's second entry where word `16 k + x` of the index scratch is non-zero and
  its first entry where that word is zero. So after the 64 stores the result scratch is ONE function of the index
  scratch (`selG`), whatever it held before; the copy out puts that function on the task's chunk of the result vector.
  The two table entries are lanes 0 and 1 of the table scratch, which the table's copy filled.
-/
import proofs.«207179_g33071248179625_cont_8to1_b_223_18_alg».proof.Proof.KICommon
import Idealize.ShloMosaic.Lib.Writes
import Idealize.ShloMosaic.Lib.ValueIdx
import Idealize.ShloMosaic.Lib.Pipeline.Value

noncomputable section

namespace Cert.Proof.KI

open Cert.KernelIdeal Cert.KernelIdeal.Gen

open Idealize.ShloMosaic Idealize.ShloMosaic.ValueIdx
open Idealize.ShloMosaic.SparseCore (S V T)

variable {F : FTy → Type}

/-- The arrays as a vector subcore's memrefs name them, and its three scratch buffers. -/
abbrev iV : Memref sig .scVector .hbm S16384 .i32 := Memref.whole main_arg0_scv
abbrev tV : Memref sig .scVector .hbm S2 .f32 := Memref.whole main_v0_scv
abbrev oV : Memref sig .scVector .hbm S16384 .f32 := Memref.whole main_v1_scv
abbrev sI : Memref sig .scVector .vmem S1024 .i32 := Memref.whole cc0_scratch0
abbrev sT : Memref sig .scVector .vmem S16 .f32 := Memref.whole cc0_scratch1
abbrev sO : Memref sig .scVector .vmem S1024 .f32 := Memref.whole cc0_scratch2

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- Chunk `L 1` as the task slices it out of the index vector and out of the result. -/
abbrev chunkK (L : grid0.Coords) : Rect S16384 := Rect.unit (s := S16384) (k0_off1 L) S1024.size (k0_off1_inb L)
abbrev iChunkK (L : grid0.Coords) : Memref sig .scVector .hbm S1024 .i32 := (iV : Memref sig .scVector .hbm S16384 .i32).slice (chunkK L) (fun _ => rfl)
abbrev oChunkK (L : grid0.Coords) : Memref sig .scVector .hbm S1024 .f32 := (oV : Memref sig .scVector .hbm S16384 .f32).slice (chunkK L) (fun _ => rfl)

/-- The selection over a scratch of index words `C`: the first entry where the word is zero, the second elsewhere. -/
def selG (t0 t1 : F .f32) (C : S1024.Idx → BitVec 32) : S1024.Idx → F .f32 := fun y => if C y = 0#32 then t0 else t1

variable [FloatOps F]

/-- One group's stored vector is the selection on the group's 16 words. -/
theorem piece_apply (t0 t1 : F .f32) (C : S1024.Idx → BitVec 32) (off : Nat)
    (h : ∀ a, (![off] : Fin 1 → Nat) a + S16.size a ≤ S1024.size a) (x : S16.Idx) :
    (shapeCast S16 (select (cmpi .ne (shapeCast S16 (View.readAt (Elt F) (sI : Memref sig .scVector .vmem S1024 .i32).view
        (Rect.unit (s := S1024) ![off] S16.size h).toLoadRect C) shapeCasts_S16_S16) (broadcast S16 (0#32 : BitVec 32)))
        (broadcast S16 t1) (broadcast S16 t0)) shapeCasts_S16_S16 : FVec F S16 .f32) x
      = selG t0 t1 C ((Rect.unit (s := S1024) ![off] S16.size h).emb x) := by
  rw [shapeCast_self, select_apply, broadcast_apply, broadcast_apply]
  unfold selG
  show Scalar.select (IntOp.cmpi .ne (shapeCast S16 _ shapeCasts_S16_S16 x) (broadcast S16 (0#32 : BitVec 32) x)) t1 t0 = _
  rw [shapeCast_self, broadcast_apply]
  show Scalar.select (IntOp.cmpi .ne (C ((Rect.unit (s := S1024) ![off] S16.size h).emb x)) 0#32) t1 t0 = _
  by_cases hc : C ((Rect.unit (s := S1024) ![off] S16.size h).emb x) = 0#32
  · simp [Scalar.select, IntOp.cmpi, hc]
  · have hb : (C ((Rect.unit (s := S1024) ![off] S16.size h).emb x) != 0#32) = true := bne_iff_ne.mpr hc
    simp [Scalar.select, IntOp.cmpi, hb, hc]

/-- Lanes 0 and 1 of the table scratch, after the table's two entries were copied onto its first two lanes. -/
theorem table_entry0 (ft : (sT : Memref sig .scVector .vmem S16 .f32).view.ty.Contents (Elt F)) (Tv : S2.Idx → F .f32) :
    extractAt ![0] (extractStridedSlice S1 ![0] (shapeCast S16 (View.readAt (Elt F) (sT : Memref sig .scVector .vmem S16 .f32).view
        (Rect.unit (s := S16) ![0] S16.size inb_S16_S16_0).toLoadRect
        ((sT : Memref sig .scVector .vmem S16 .f32).view.writes (Elt F) ft [⟨Rect.unit (s := S16) ![0] S2.size inb_S16_S2_0, Tv⟩]))
        shapeCasts_S16_S16) slices_S16_o0_S1) inpos_S1_p0 = Tv (ix1 0) := by
  unfold extractAt extractStridedSlice
  erw [shapeCast_self]
  have h := View.read_writes_cons_emb (sT : Memref sig .scVector .vmem S16 .f32).view ft (Rect.unit (s := S16) ![0] S2.size inb_S16_S2_0) Tv [] (ix1 0)
  refine Eq.trans ?_ h
  rw [View.readAt_apply]
  congr 1
  funext a; apply Fin.ext
  match a with
  | 0 => simp [LoadRect.idx_apply, Rect.toLoadRect, Rect.unit, Rect.emb]

theorem table_entry1 (ft : (sT : Memref sig .scVector .vmem S16 .f32).view.ty.Contents (Elt F)) (Tv : S2.Idx → F .f32) :
    extractAt ![0] (extractStridedSlice S1 ![1] (shapeCast S16 (View.readAt (Elt F) (sT : Memref sig .scVector .vmem S16 .f32).view
        (Rect.unit (s := S16) ![0] S16.size inb_S16_S16_0).toLoadRect
        ((sT : Memref sig .scVector .vmem S16 .f32).view.writes (Elt F) ft [⟨Rect.unit (s := S16) ![0] S2.size inb_S16_S2_0, Tv⟩]))
        shapeCasts_S16_S16) slices_S16_o1_S1) inpos_S1_p0 = Tv (ix1 1) := by
  unfold extractAt extractStridedSlice
  erw [shapeCast_self]
  have h := View.read_writes_cons_emb (sT : Memref sig .scVector .vmem S16 .f32).view ft (Rect.unit (s := S16) ![0] S2.size inb_S16_S2_0) Tv [] (ix1 1)
  refine Eq.trans ?_ h
  rw [View.readAt_apply]
  congr 1
  funext a; apply Fin.ext
  match a with
  | 0 => simp [LoadRect.idx_apply, Rect.toLoadRect, Rect.unit, Rect.emb]

/-- After the copy out, the task's chunk of the result holds, word by word, the one function `G` the 64 stored groups
    are pieces of, whatever the result scratch and the chunk held before. -/
theorem out_agree (L : grid0.Coords) (Lp : List (View.Piece (Elt F) S1024 .f32)) (G : S1024.Idx → F .f32)
    (hG : ∀ p ∈ Lp, ∀ x : p.1.shape.Idx, p.2 x = G (p.1.emb x)) (hcov : ∀ y : S1024.Idx, ∃ p ∈ Lp, y ∈ p.1.set)
    (fo : (sO : Memref sig .scVector .vmem S1024 .f32).view.ty.Contents (Elt F)) (g Gout : (oChunkK L).view.ty.Contents (Elt F))
    (hGout : ∀ y : S1024.Idx, Gout ((oChunkK L).view.emb y) = G y) :
    ∀ i ∈ (oChunkK L).view.set,
      (oChunkK L).view.writes (Elt F) g [⟨Rect.whole S1024, ReadAs.same.apply (View.read (Elt F) (sO : Memref sig .scVector .vmem S1024 .f32).view
        ((sO : Memref sig .scVector .vmem S1024 .f32).view.writes (Elt F) fo Lp))⟩] i = Gout i := by
  intro i hi
  obtain ⟨y, -, rfl⟩ := Finset.mem_map.mp hi
  rw [hGout]
  have h1 := View.read_writes_cons_emb (oChunkK L).view g (Rect.whole S1024)
    (ReadAs.same.apply (View.read (Elt F) (sO : Memref sig .scVector .vmem S1024 .f32).view ((sO : Memref sig .scVector .vmem S1024 .f32).view.writes (Elt F) fo Lp))) [] y
  rw [Rect.emb_whole_apply, View.read_apply, cast_eq] at h1
  rw [h1]
  exact View.read_writes_apply_of_pieces (sO : Memref sig .scVector .vmem S1024 .f32).view fo G Lp hG y (hcov y)

end Cert.Proof.KI

end
-- ==== Proof.KITile.lean ====
/-
  One task of the lookup. Vector subcore `(0, i)` copies chunk `i` of the index vector and the two-entry table into
  its scratch, waits for both, reads the table's two entries out of the scratch's first two lanes, and for each of
  the chunk's 64 groups of 16 words stores the group's selection (a non-zero word selects the second entry, a zero
  word the first) into the result scratch; then it copies the result scratch out to chunk `i` of the result vector
  and waits. The copies are local and one at a time per semaphore; no other thread touches the scratch or the chunk.
  What the task leaves in its chunk of the result is the lookup's value there (`outV`).
-/
import proofs.«207179_g33071248179625_cont_8to1_b_223_18_alg».proof.Proof.KIValue
import Idealize.ShloMosaic.Lib.Ring

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

abbrev cIcell (d : Dev nD) (c : Fin τ.nSC) (i : Fin τ.nSub) : GSem nD τ sig := (V d c i, .dma cc0_scratch3.sem)
abbrev cTcell (d : Dev nD) (c : Fin τ.nSC) (i : Fin τ.nSub) : GSem nD τ sig := (V d c i, .dma cc0_scratch4.sem)
abbrev cOcell (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cIcell d (cV L) (jV L)) 0 ∗ semVal (cTcell d (cV L) (jV L)) 0 ∗ semVal (cOcell d (cV L) (jV L)) 0
          ∗ bigSep ((((ownCells (V d (cV L) (jV L))).erase (cIcell d (cV L) (jV L))).erase (cTcell d (cV L) (jV L))).erase (cOcell d (cV L) (jV L)))
              fun g => semVal g 0) := by
  unfold SparseCore.Cfg.ownSems0
  rw [SparseCore.bigSep_erase' ((mem_ownCells (g := cIcell d (cV L) (jV L))).mpr ⟨rfl, by
      show (SemLoc.dma cc0_scratch3.sem : SemLoc sig).isScoped .scVector = true; decide⟩),
    SparseCore.bigSep_erase' (Finset.mem_erase.mpr ⟨by simp [cIcell, cTcell]; decide, (mem_ownCells (g := cTcell d (cV L) (jV L))).mpr ⟨rfl, by
      show (SemLoc.dma cc0_scratch4.sem : SemLoc sig).isScoped .scVector = true; decide⟩⟩),
    SparseCore.bigSep_erase' (Finset.mem_erase.mpr ⟨by simp [cTcell, cOcell]; decide, Finset.mem_erase.mpr ⟨by simp [cIcell, cOcell]; decide,
      (mem_ownCells (g := cOcell d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- The task's slice of the index vector (and of the result) is chunk `L 1`. -/
theorem chunkK_eq : chunkK L = chunk (jL L) := by
  unfold chunkK chunk Rect.part Rect.block
  congr 1 <;> funext a
  · rw [k0_off1_eq]
    match a with
    | 0 => simp [Shape.partIx, Shape.partSize]; omega
  · match a with
    | 0 => simp [Shape.partSize]

omit [FloatOps F] in
theorem set_iChunkK : (iChunkK L).view.set = chunkSet (jL L) := by
  show ((iV : Memref sig .scVector .hbm S16384 .i32).view.slice (chunkK L)).set = (chunk (jL L)).set
  rw [View.set_slice, chunkK_eq]; exact Finset.map_refl
omit [FloatOps F] in
theorem set_oChunkK : (oChunkK L).view.set = chunkSet (jL L) := by
  show ((oV : Memref sig .scVector .hbm S16384 .f32).view.slice (chunkK L)).set = (chunk (jL L)).set
  rw [View.set_slice, chunkK_eq]; exact Finset.map_refl

omit [FloatOps F] in
theorem pts_iChunkK (f : Buf (Elt F) (iLoc d)) :
    ((iChunkK L).view.loc (V d (cV L) (jV L)) ↦[(iChunkK L).view.set]{fullShare} f : sProp 𝕄) = iLoc d ↦[chunkSet (jL L)]{fullShare} f := by
  rw [set_iChunkK]
omit [FloatOps F] in
theorem pts_oChunkK (f : Buf (Elt F) (oLoc d)) :
    ((oChunkK L).view.loc (V d (cV L) (jV L)) ↦[(oChunkK L).view.set]{fullShare} f : sProp 𝕄) = oLoc d ↦[chunkSet (jL L)]{fullShare} f := by
  rw [set_oChunkK]
omit [FloatOps F] in
theorem pts_tV (q : PosShare TreeShare) (f : Buf (Elt F) (tLoc d)) :
    ((tV : Memref sig .scVector .hbm S2 .f32).view.loc (V d (cV L) (jV L)) ↦{q} f : sProp 𝕄) = tLoc d ↦{q} f := rfl
omit [FloatOps F] in
theorem pts_sI (f : Buf (Elt F) ((V d (cV L) (jV L)).loc cc0_scratch0)) :
    ((sI : Memref sig .scVector .vmem S1024 .i32).view.loc (V d (cV L) (jV L)) ↦{fullShare} f : sProp 𝕄) = (V d (cV L) (jV L)).loc cc0_scratch0 ↦{fullShare} f := rfl
omit [FloatOps F] in
theorem pts_sT (f : Buf (Elt F) ((V d (cV L) (jV L)).loc cc0_scratch1)) :
    ((sT : Memref sig .scVector .vmem S16 .f32).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO : Memref sig .scVector .vmem S1024 .f32).view.loc (V d (cV L) (jV L)) ↦{fullShare} f : sProp 𝕄) = (V d (cV L) (jV L)).loc cc0_scratch2 ↦{fullShare} f := rfl

set_option maxHeartbeats 4000000 in
/-- The task on vector subcore `(L 0, L 1)` of device `d`: from its chunk of the index vector, its read share of the
    table and its chunk of the result, to the same with the chunk of the result at the lookup's value. -/
theorem tile_body (hF : (K (F := F)).Facts) (O : CellTallies nD τ sig (HIx 1)) (W : Waits sig (HIx 1)) (hO : ∀ g, O g none = 0) :
    iprop(levAts (K (F := F)).L (K (F := F)).lev ∗ emp
        ∗ (iChunkPts m d (jL L) ∗ tSharePts m d (jL L) ∗ oChunkPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_lookup L iV (Memref.isWhole_whole _) tV (Memref.isWhole_whole _) oV (Memref.isWhole_whole _)
            sI (Memref.isWhole_whole _) sT (Memref.isWhole_whole _) sO (Memref.isWhole_whole _) cc0_scratch3 cc0_scratch4 cc0_scoped0)
          fun _ => iprop((iChunkPts m d (jL L) ∗ tSharePts m d (jL L) ∗ oChunkPts d (jL L) (outV m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_lookup_eq_skeleton]; unfold cc0_lookup_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%ft, Hst⟩, ⟨%fo, Hso⟩, Hbufs⟩, ⟨HsemI, HsemT, HsemO, Hsems⟩, HO⟩
  ihave Hmw := ((K (F := F)).mayWaits_none (thr := V d (cV L) (jV L)) hO) $$ Hlv
  ihave Hi' := (Entails.of_eq (pts_iChunkK (F := F) d L _).symm) $$ Hi
  ihave Ho' := (Entails.of_eq (pts_oChunkK (F := F) d L _).symm) $$ Ho
  ihave Ht' := (Entails.of_eq (pts_tV (F := F) d L _ _).symm) $$ Ht
  ihave Hs' := (Entails.of_eq (pts_sI (F := F) d L _).symm) $$ Hs
  ihave Hst' := (Entails.of_eq (pts_sT (F := F) d L _).symm) $$ Hst
  ihave Hso' := (Entails.of_eq (pts_sO (F := F) d L _).symm) $$ Hso
  sl_exec_parts!
  sl_step
  -- the 64 stored groups tile the result scratch, and each is the selection on its 16 words
  have hcov : ∀ y : S1024.Idx, ∃ p ∈ tile_body.sl.Hso'_64 m d L fs ft, y ∈ p.1.set :=
    View.cover_of_tiledL _ S16.size (by sl_kernel_rfl)
  have hG : ∀ p ∈ tile_body.sl.Hso'_64 m d L fs ft, ∀ x : p.1.shape.Idx,
      p.2 x = selG (tile_body.sl.v14 m d L ft) (tile_body.sl.v16 m d L ft)
        (View.write (Elt F) (sI : Memref sig .scVector .vmem S1024 .i32).view fs (tile_body.sl.dma0 m d L) Finset.univ) (p.1.emb x) := by
    -- group by group, last stored first: the stored vector's definition opened down to the load, the two entries and
    -- the index scratch kept as they are, then the one lemma on a group (`piece_apply`)
    unfold tile_body.sl.Hso'_64
    refine List.forall_mem_cons.mpr ⟨fun x => by (unfold k0_pay2; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold k0_pay1 tile_body.sl.r_2; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v636 tile_body.sl.v633 tile_body.sl.v630 tile_body.sl.v628 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v626 tile_body.sl.v623 tile_body.sl.v620 tile_body.sl.v618 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v616 tile_body.sl.v613 tile_body.sl.v610 tile_body.sl.v608 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v606 tile_body.sl.v603 tile_body.sl.v600 tile_body.sl.v598 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v596 tile_body.sl.v593 tile_body.sl.v590 tile_body.sl.v588 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_57
    refine List.forall_mem_cons.mpr ⟨fun x => by (unfold tile_body.sl.v586 tile_body.sl.v583 tile_body.sl.v580 tile_body.sl.v578 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v576 tile_body.sl.v573 tile_body.sl.v570 tile_body.sl.v568 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v566 tile_body.sl.v563 tile_body.sl.v560 tile_body.sl.v558 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v556 tile_body.sl.v553 tile_body.sl.v550 tile_body.sl.v548 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_53
    refine List.forall_mem_cons.mpr ⟨fun x => by (unfold tile_body.sl.v546 tile_body.sl.v543 tile_body.sl.v540 tile_body.sl.v538 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v536 tile_body.sl.v533 tile_body.sl.v530 tile_body.sl.v528 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v526 tile_body.sl.v523 tile_body.sl.v520 tile_body.sl.v518 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v516 tile_body.sl.v513 tile_body.sl.v510 tile_body.sl.v508 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_49
    refine List.forall_mem_cons.mpr ⟨fun x => by (unfold tile_body.sl.v506 tile_body.sl.v503 tile_body.sl.v500 tile_body.sl.v498 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v496 tile_body.sl.v493 tile_body.sl.v490 tile_body.sl.v488 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v486 tile_body.sl.v483 tile_body.sl.v480 tile_body.sl.v478 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v476 tile_body.sl.v473 tile_body.sl.v470 tile_body.sl.v468 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_45
    refine List.forall_mem_cons.mpr ⟨fun x => by (unfold tile_body.sl.v466 tile_body.sl.v463 tile_body.sl.v460 tile_body.sl.v458 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v456 tile_body.sl.v453 tile_body.sl.v450 tile_body.sl.v448 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v446 tile_body.sl.v443 tile_body.sl.v440 tile_body.sl.v438 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v436 tile_body.sl.v433 tile_body.sl.v430 tile_body.sl.v428 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v426 tile_body.sl.v423 tile_body.sl.v420 tile_body.sl.v418 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_40
    refine List.forall_mem_cons.mpr ⟨fun x => by (unfold tile_body.sl.v416 tile_body.sl.v413 tile_body.sl.v410 tile_body.sl.v408 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v406 tile_body.sl.v403 tile_body.sl.v400 tile_body.sl.v398 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v396 tile_body.sl.v393 tile_body.sl.v390 tile_body.sl.v388 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v386 tile_body.sl.v383 tile_body.sl.v380 tile_body.sl.v378 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_36
    refine List.forall_mem_cons.mpr ⟨fun x => by (unfold tile_body.sl.v376 tile_body.sl.v373 tile_body.sl.v370 tile_body.sl.v368 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v366 tile_body.sl.v363 tile_body.sl.v360 tile_body.sl.v358 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v356 tile_body.sl.v353 tile_body.sl.v350 tile_body.sl.v348 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v346 tile_body.sl.v343 tile_body.sl.v340 tile_body.sl.v338 tile_body.sl.r_1 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_32
    refine List.forall_mem_cons.mpr ⟨fun x => by (unfold tile_body.sl.v336 tile_body.sl.v333 tile_body.sl.v330 tile_body.sl.v328 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v326 tile_body.sl.v323 tile_body.sl.v320 tile_body.sl.v318 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v316 tile_body.sl.v313 tile_body.sl.v310 tile_body.sl.v308 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v306 tile_body.sl.v303 tile_body.sl.v300 tile_body.sl.v298 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v296 tile_body.sl.v293 tile_body.sl.v290 tile_body.sl.v288 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_27
    refine List.forall_mem_cons.mpr ⟨fun x => by (unfold tile_body.sl.v286 tile_body.sl.v283 tile_body.sl.v280 tile_body.sl.v278 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v276 tile_body.sl.v273 tile_body.sl.v270 tile_body.sl.v268 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v266 tile_body.sl.v263 tile_body.sl.v260 tile_body.sl.v258 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v256 tile_body.sl.v253 tile_body.sl.v250 tile_body.sl.v248 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_23
    refine List.forall_mem_cons.mpr ⟨fun x => by (unfold tile_body.sl.v246 tile_body.sl.v243 tile_body.sl.v240 tile_body.sl.v238 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v236 tile_body.sl.v233 tile_body.sl.v230 tile_body.sl.v228 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v226 tile_body.sl.v223 tile_body.sl.v220 tile_body.sl.v218 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v216 tile_body.sl.v213 tile_body.sl.v210 tile_body.sl.v208 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_19
    refine List.forall_mem_cons.mpr ⟨fun x => by (unfold tile_body.sl.v206 tile_body.sl.v203 tile_body.sl.v200 tile_body.sl.v198 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v196 tile_body.sl.v193 tile_body.sl.v190 tile_body.sl.v188 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v186 tile_body.sl.v183 tile_body.sl.v180 tile_body.sl.v178 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v176 tile_body.sl.v173 tile_body.sl.v170 tile_body.sl.v168 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_15
    refine List.forall_mem_cons.mpr ⟨fun x => by (unfold tile_body.sl.v166 tile_body.sl.v163 tile_body.sl.v160 tile_body.sl.v158 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v156 tile_body.sl.v153 tile_body.sl.v150 tile_body.sl.v148 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v146 tile_body.sl.v143 tile_body.sl.v140 tile_body.sl.v138 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v136 tile_body.sl.v133 tile_body.sl.v130 tile_body.sl.v128 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v126 tile_body.sl.v123 tile_body.sl.v120 tile_body.sl.v118 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_10
    refine List.forall_mem_cons.mpr ⟨fun x => by (unfold tile_body.sl.v116 tile_body.sl.v113 tile_body.sl.v110 tile_body.sl.v108 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v106 tile_body.sl.v103 tile_body.sl.v100 tile_body.sl.v98 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v96 tile_body.sl.v93 tile_body.sl.v90 tile_body.sl.v88 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v86 tile_body.sl.v83 tile_body.sl.v80 tile_body.sl.v78 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_6
    refine List.forall_mem_cons.mpr ⟨fun x => by (unfold tile_body.sl.v76 tile_body.sl.v73 tile_body.sl.v70 tile_body.sl.v68 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v66 tile_body.sl.v63 tile_body.sl.v60 tile_body.sl.v58 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v56 tile_body.sl.v53 tile_body.sl.v50 tile_body.sl.v48 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v46 tile_body.sl.v43 tile_body.sl.v40 tile_body.sl.v38 tile_body.sl.r tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_2
    refine List.forall_mem_cons.mpr ⟨fun x => by (unfold tile_body.sl.v36 tile_body.sl.v33 tile_body.sl.v30 tile_body.sl.v28 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v26 tile_body.sl.v23 tile_body.sl.v20 tile_body.sl.v18 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    exact fun _ hp => absurd hp List.not_mem_nil
  -- the two entries are the table's, the index scratch is the task's chunk of the index vector
  have hT0 : tile_body.sl.v14 m d L ft = tabV m d (ix1 0) := table_entry0 ft (tile_body.sl.dma0_1 m d)
  have hT1 : tile_body.sl.v16 m d L ft = tabV m d (ix1 1) := table_entry1 ft (tile_body.sl.dma0_1 m d)
  have hC : ∀ y : S1024.Idx, View.write (Elt F) (sI : Memref sig .scVector .vmem S1024 .i32).view fs (tile_body.sl.dma0 m d L) Finset.univ y
      = m (iLoc d) ((chunkK L).emb y) := by
    intro y
    refine (congrFun (View.write_whole_univ (Val := Elt F) (cc0_scratch0 : Ref sig .scVector) fs (tile_body.sl.dma0 m d L)) y).trans ?_
    unfold tile_body.sl.dma0
    show View.read (Elt F) (iChunkK L).view (m (iLoc d)) y = _
    rw [View.read_apply, cast_eq]; rfl
  have hGout : ∀ y : S1024.Idx, outV m d ((oChunkK L).view.emb y)
      = selG (tile_body.sl.v14 m d L ft) (tile_body.sl.v16 m d L ft)
          (View.write (Elt F) (sI : Memref sig .scVector .vmem S1024 .i32).view fs (tile_body.sl.dma0 m d L) Finset.univ) y := by
    intro y
    unfold selG outV Cert.Proof.Spec.lookupFlat
    rw [hC y, hT0, hT1]; rfl
  -- so the copy out leaves the lookup's value on the task's chunk of the result
  have hagree : ∀ i ∈ (oChunkK L).view.set,
      (oChunkK L).view.writes (Elt F) (m (oLoc d)) [⟨Rect.whole S1024, tile_body.sl.dma193 m d L fs ft fo⟩] i = outV m d i :=
    out_agree (F := F) L _ _ hG hcov fo (m (oLoc d)) (outV m d) hGout
  isplitl [Hi' Ht' Ho']
  · isplitl [Hi']; · iapply (Entails.of_eq (pts_iChunkK (F := F) d L _)); iexact Hi'
    isplitl [Ht']; · iapply (Entails.of_eq (pts_tV (F := F) d L _ _)); iexact Ht'
    iapply (Entails.of_eq ((pointsTo_congr hagree).trans (pts_oChunkK (F := F) d L _))); iexact Ho'
  isplitl [Hs' Hst' Hso' Hbufs]
  · isplitl [Hs']; · iexists _; iapply (Entails.of_eq (pts_sI (F := F) d L _)); iexact Hs'
    isplitl [Hst']; · iexists _; iapply (Entails.of_eq (pts_sT (F := F) d L _)); iexact Hst'
    isplitl [Hso']; · iexists _; iapply (Entails.of_eq (pts_sO (F := F) d L _)); iexact Hso'
    iexact Hbufs
  isplitl [HsemI HsemT HsemO Hsems]
  · isplitl [HsemI]; · iexact HsemI
    isplitl [HsemT]; · iexact HsemT
    isplitl [HsemO]; · iexact HsemO
    iexact Hsems
  iexists (insert (SemLoc.dma cc0_scoped0.sem, (default : HIx 1)) (insert (SemLoc.dma cc0_scratch3.sem, (default : HIx 1))
    (insert (SemLoc.dma cc0_scratch4.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  iexact HO

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_lookup (coordsV c s)
          iV (Memref.isWhole_whole _) tV (Memref.isWhole_whole _) oV (Memref.isWhole_whole _)
          sI (Memref.isWhole_whole _) sT (Memref.isWhole_whole _) sO (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the one call meets its obligation: it is `tile_body` at the task's coordinates. -/
theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

end Cert.Proof.KI

end
-- ==== Proof.KBValue.lean ====
/-
  What one task's stores and copies leave, as plain functions. The result scratch is written in 64 groups of 16 words;
  group `k` holds, at lane `x`, the table's second entry where word `16 k + x` of the index scratch is non-zero and
  its first entry where that word is zero. So after the 64 stores the result scratch is ONE function of the index
  scratch (`selG`), whatever it held before; the copy out puts that function on the task's chunk of the result vector.
  The two table entries are lanes 0 and 1 of the table scratch, which the table's copy filled.
-/
import proofs.«207179_g33071248179625_cont_8to1_b_223_18_alg».proof.Proof.KBCommon
import Idealize.ShloMosaic.Lib.Writes
import Idealize.ShloMosaic.Lib.ValueIdx
import Idealize.ShloMosaic.Lib.Pipeline.Value

noncomputable section

namespace Cert.Proof.KB

open Cert.Kernel Cert.Kernel.Gen

open Idealize.ShloMosaic Idealize.ShloMosaic.ValueIdx
open Idealize.ShloMosaic.SparseCore (S V T)

variable {F : FTy → Type}

/-- The arrays as a vector subcore's memrefs name them, and its three scratch buffers. -/
abbrev iV : Memref sig .scVector .hbm S16384 .i32 := Memref.whole main_arg0_scv
abbrev tV : Memref sig .scVector .hbm S2 .f32 := Memref.whole main_v0_scv
abbrev oV : Memref sig .scVector .hbm S16384 .f32 := Memref.whole main_v1_scv
abbrev sI : Memref sig .scVector .vmem S1024 .i32 := Memref.whole cc0_scratch0
abbrev sT : Memref sig .scVector .vmem S16 .f32 := Memref.whole cc0_scratch1
abbrev sO : Memref sig .scVector .vmem S1024 .f32 := Memref.whole cc0_scratch2

abbrev cV (L : grid0.Coords) : Fin τ.nSC := (L 0).castLE hcore0
abbrev jV (L : grid0.Coords) : Fin τ.nSub := (L 1).castLE hsub0
theorem bound_one : grid0.bound 1 = 16 := rfl
abbrev jL (L : grid0.Coords) : Fin 16 := Fin.cast bound_one (L 1)

/-- Chunk `L 1` as the task slices it out of the index vector and out of the result. -/
abbrev chunkK (L : grid0.Coords) : Rect S16384 := Rect.unit (s := S16384) (k0_off1 L) S1024.size (k0_off1_inb L)
abbrev iChunkK (L : grid0.Coords) : Memref sig .scVector .hbm S1024 .i32 := (iV : Memref sig .scVector .hbm S16384 .i32).slice (chunkK L) (fun _ => rfl)
abbrev oChunkK (L : grid0.Coords) : Memref sig .scVector .hbm S1024 .f32 := (oV : Memref sig .scVector .hbm S16384 .f32).slice (chunkK L) (fun _ => rfl)

/-- The selection over a scratch of index words `C`: the first entry where the word is zero, the second elsewhere. -/
def selG (t0 t1 : F .f32) (C : S1024.Idx → BitVec 32) : S1024.Idx → F .f32 := fun y => if C y = 0#32 then t0 else t1

variable [FloatOps F]

/-- One group's stored vector is the selection on the group's 16 words. -/
theorem piece_apply (t0 t1 : F .f32) (C : S1024.Idx → BitVec 32) (off : Nat)
    (h : ∀ a, (![off] : Fin 1 → Nat) a + S16.size a ≤ S1024.size a) (x : S16.Idx) :
    (shapeCast S16 (select (cmpi .ne (shapeCast S16 (View.readAt (Elt F) (sI : Memref sig .scVector .vmem S1024 .i32).view
        (Rect.unit (s := S1024) ![off] S16.size h).toLoadRect C) shapeCasts_S16_S16) (broadcast S16 (0#32 : BitVec 32)))
        (broadcast S16 t1) (broadcast S16 t0)) shapeCasts_S16_S16 : FVec F S16 .f32) x
      = selG t0 t1 C ((Rect.unit (s := S1024) ![off] S16.size h).emb x) := by
  rw [shapeCast_self, select_apply, broadcast_apply, broadcast_apply]
  unfold selG
  show Scalar.select (IntOp.cmpi .ne (shapeCast S16 _ shapeCasts_S16_S16 x) (broadcast S16 (0#32 : BitVec 32) x)) t1 t0 = _
  rw [shapeCast_self, broadcast_apply]
  show Scalar.select (IntOp.cmpi .ne (C ((Rect.unit (s := S1024) ![off] S16.size h).emb x)) 0#32) t1 t0 = _
  by_cases hc : C ((Rect.unit (s := S1024) ![off] S16.size h).emb x) = 0#32
  · simp [Scalar.select, IntOp.cmpi, hc]
  · have hb : (C ((Rect.unit (s := S1024) ![off] S16.size h).emb x) != 0#32) = true := bne_iff_ne.mpr hc
    simp [Scalar.select, IntOp.cmpi, hb, hc]

/-- Lanes 0 and 1 of the table scratch, after the table's two entries were copied onto its first two lanes. -/
theorem table_entry0 (ft : (sT : Memref sig .scVector .vmem S16 .f32).view.ty.Contents (Elt F)) (Tv : S2.Idx → F .f32) :
    extractAt ![0] (extractStridedSlice S1 ![0] (shapeCast S16 (View.readAt (Elt F) (sT : Memref sig .scVector .vmem S16 .f32).view
        (Rect.unit (s := S16) ![0] S16.size inb_S16_S16_0).toLoadRect
        ((sT : Memref sig .scVector .vmem S16 .f32).view.writes (Elt F) ft [⟨Rect.unit (s := S16) ![0] S2.size inb_S16_S2_0, Tv⟩]))
        shapeCasts_S16_S16) slices_S16_o0_S1) inpos_S1_p0 = Tv (ix1 0) := by
  unfold extractAt extractStridedSlice
  erw [shapeCast_self]
  have h := View.read_writes_cons_emb (sT : Memref sig .scVector .vmem S16 .f32).view ft (Rect.unit (s := S16) ![0] S2.size inb_S16_S2_0) Tv [] (ix1 0)
  refine Eq.trans ?_ h
  rw [View.readAt_apply]
  congr 1
  funext a; apply Fin.ext
  match a with
  | 0 => simp [LoadRect.idx_apply, Rect.toLoadRect, Rect.unit, Rect.emb]

theorem table_entry1 (ft : (sT : Memref sig .scVector .vmem S16 .f32).view.ty.Contents (Elt F)) (Tv : S2.Idx → F .f32) :
    extractAt ![0] (extractStridedSlice S1 ![1] (shapeCast S16 (View.readAt (Elt F) (sT : Memref sig .scVector .vmem S16 .f32).view
        (Rect.unit (s := S16) ![0] S16.size inb_S16_S16_0).toLoadRect
        ((sT : Memref sig .scVector .vmem S16 .f32).view.writes (Elt F) ft [⟨Rect.unit (s := S16) ![0] S2.size inb_S16_S2_0, Tv⟩]))
        shapeCasts_S16_S16) slices_S16_o1_S1) inpos_S1_p0 = Tv (ix1 1) := by
  unfold extractAt extractStridedSlice
  erw [shapeCast_self]
  have h := View.read_writes_cons_emb (sT : Memref sig .scVector .vmem S16 .f32).view ft (Rect.unit (s := S16) ![0] S2.size inb_S16_S2_0) Tv [] (ix1 1)
  refine Eq.trans ?_ h
  rw [View.readAt_apply]
  congr 1
  funext a; apply Fin.ext
  match a with
  | 0 => simp [LoadRect.idx_apply, Rect.toLoadRect, Rect.unit, Rect.emb]

/-- After the copy out, the task's chunk of the result holds, word by word, the one function `G` the 64 stored groups
    are pieces of, whatever the result scratch and the chunk held before. -/
theorem out_agree (L : grid0.Coords) (Lp : List (View.Piece (Elt F) S1024 .f32)) (G : S1024.Idx → F .f32)
    (hG : ∀ p ∈ Lp, ∀ x : p.1.shape.Idx, p.2 x = G (p.1.emb x)) (hcov : ∀ y : S1024.Idx, ∃ p ∈ Lp, y ∈ p.1.set)
    (fo : (sO : Memref sig .scVector .vmem S1024 .f32).view.ty.Contents (Elt F)) (g Gout : (oChunkK L).view.ty.Contents (Elt F))
    (hGout : ∀ y : S1024.Idx, Gout ((oChunkK L).view.emb y) = G y) :
    ∀ i ∈ (oChunkK L).view.set,
      (oChunkK L).view.writes (Elt F) g [⟨Rect.whole S1024, ReadAs.same.apply (View.read (Elt F) (sO : Memref sig .scVector .vmem S1024 .f32).view
        ((sO : Memref sig .scVector .vmem S1024 .f32).view.writes (Elt F) fo Lp))⟩] i = Gout i := by
  intro i hi
  obtain ⟨y, -, rfl⟩ := Finset.mem_map.mp hi
  rw [hGout]
  have h1 := View.read_writes_cons_emb (oChunkK L).view g (Rect.whole S1024)
    (ReadAs.same.apply (View.read (Elt F) (sO : Memref sig .scVector .vmem S1024 .f32).view ((sO : Memref sig .scVector .vmem S1024 .f32).view.writes (Elt F) fo Lp))) [] y
  rw [Rect.emb_whole_apply, View.read_apply, cast_eq] at h1
  rw [h1]
  exact View.read_writes_apply_of_pieces (sO : Memref sig .scVector .vmem S1024 .f32).view fo G Lp hG y (hcov y)

end Cert.Proof.KB

end
-- ==== Proof.KBTile.lean ====
/-
  One task of the lookup. Vector subcore `(0, i)` copies chunk `i` of the index vector and the two-entry table into
  its scratch, waits for both, reads the table's two entries out of the scratch's first two lanes, and for each of
  the chunk's 64 groups of 16 words stores the group's selection (a non-zero word selects the second entry, a zero
  word the first) into the result scratch; then it copies the result scratch out to chunk `i` of the result vector
  and waits. The copies are local and one at a time per semaphore; no other thread touches the scratch or the chunk.
  What the task leaves in its chunk of the result is the lookup's value there (`outV`).
-/
import proofs.«207179_g33071248179625_cont_8to1_b_223_18_alg».proof.Proof.KBValue
import Idealize.ShloMosaic.Lib.Ring

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

abbrev cIcell (d : Dev nD) (c : Fin τ.nSC) (i : Fin τ.nSub) : GSem nD τ sig := (V d c i, .dma cc0_scratch3.sem)
abbrev cTcell (d : Dev nD) (c : Fin τ.nSC) (i : Fin τ.nSub) : GSem nD τ sig := (V d c i, .dma cc0_scratch4.sem)
abbrev cOcell (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cIcell d (cV L) (jV L)) 0 ∗ semVal (cTcell d (cV L) (jV L)) 0 ∗ semVal (cOcell d (cV L) (jV L)) 0
          ∗ bigSep ((((ownCells (V d (cV L) (jV L))).erase (cIcell d (cV L) (jV L))).erase (cTcell d (cV L) (jV L))).erase (cOcell d (cV L) (jV L)))
              fun g => semVal g 0) := by
  unfold SparseCore.Cfg.ownSems0
  rw [SparseCore.bigSep_erase' ((mem_ownCells (g := cIcell d (cV L) (jV L))).mpr ⟨rfl, by
      show (SemLoc.dma cc0_scratch3.sem : SemLoc sig).isScoped .scVector = true; decide⟩),
    SparseCore.bigSep_erase' (Finset.mem_erase.mpr ⟨by simp [cIcell, cTcell]; decide, (mem_ownCells (g := cTcell d (cV L) (jV L))).mpr ⟨rfl, by
      show (SemLoc.dma cc0_scratch4.sem : SemLoc sig).isScoped .scVector = true; decide⟩⟩),
    SparseCore.bigSep_erase' (Finset.mem_erase.mpr ⟨by simp [cTcell, cOcell]; decide, Finset.mem_erase.mpr ⟨by simp [cIcell, cOcell]; decide,
      (mem_ownCells (g := cOcell d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
/-- The task's slice of the index vector (and of the result) is chunk `L 1`. -/
theorem chunkK_eq : chunkK L = chunk (jL L) := by
  unfold chunkK chunk Rect.part Rect.block
  congr 1 <;> funext a
  · rw [k0_off1_eq]
    match a with
    | 0 => simp [Shape.partIx, Shape.partSize]; omega
  · match a with
    | 0 => simp [Shape.partSize]

omit [FloatOps F] in
theorem set_iChunkK : (iChunkK L).view.set = chunkSet (jL L) := by
  show ((iV : Memref sig .scVector .hbm S16384 .i32).view.slice (chunkK L)).set = (chunk (jL L)).set
  rw [View.set_slice, chunkK_eq]; exact Finset.map_refl
omit [FloatOps F] in
theorem set_oChunkK : (oChunkK L).view.set = chunkSet (jL L) := by
  show ((oV : Memref sig .scVector .hbm S16384 .f32).view.slice (chunkK L)).set = (chunk (jL L)).set
  rw [View.set_slice, chunkK_eq]; exact Finset.map_refl

omit [FloatOps F] in
theorem pts_iChunkK (f : Buf (Elt F) (iLoc d)) :
    ((iChunkK L).view.loc (V d (cV L) (jV L)) ↦[(iChunkK L).view.set]{fullShare} f : sProp 𝕄) = iLoc d ↦[chunkSet (jL L)]{fullShare} f := by
  rw [set_iChunkK]
omit [FloatOps F] in
theorem pts_oChunkK (f : Buf (Elt F) (oLoc d)) :
    ((oChunkK L).view.loc (V d (cV L) (jV L)) ↦[(oChunkK L).view.set]{fullShare} f : sProp 𝕄) = oLoc d ↦[chunkSet (jL L)]{fullShare} f := by
  rw [set_oChunkK]
omit [FloatOps F] in
theorem pts_tV (q : PosShare TreeShare) (f : Buf (Elt F) (tLoc d)) :
    ((tV : Memref sig .scVector .hbm S2 .f32).view.loc (V d (cV L) (jV L)) ↦{q} f : sProp 𝕄) = tLoc d ↦{q} f := rfl
omit [FloatOps F] in
theorem pts_sI (f : Buf (Elt F) ((V d (cV L) (jV L)).loc cc0_scratch0)) :
    ((sI : Memref sig .scVector .vmem S1024 .i32).view.loc (V d (cV L) (jV L)) ↦{fullShare} f : sProp 𝕄) = (V d (cV L) (jV L)).loc cc0_scratch0 ↦{fullShare} f := rfl
omit [FloatOps F] in
theorem pts_sT (f : Buf (Elt F) ((V d (cV L) (jV L)).loc cc0_scratch1)) :
    ((sT : Memref sig .scVector .vmem S16 .f32).view.loc (V d (cV L) (jV L)) ↦{fullShare} f : sProp 𝕄) = (V d (cV L) (jV L)).loc cc0_scratch1 ↦{fullShare} f := rfl
omit [FloatOps F] in
theorem pts_sO (f : Buf (Elt F) ((V d (cV L) (jV L)).loc cc0_scratch2)) :
    ((sO : Memref sig .scVector .vmem S1024 .f32).view.loc (V d (cV L) (jV L)) ↦{fullShare} f : sProp 𝕄) = (V d (cV L) (jV L)).loc cc0_scratch2 ↦{fullShare} f := rfl

set_option maxHeartbeats 4000000 in
/-- The task on vector subcore `(L 0, L 1)` of device `d`: from its chunk of the index vector, its read share of the
    table and its chunk of the result, to the same with the chunk of the result at the lookup's value. -/
theorem tile_body (hF : (K (F := F)).Facts) (O : CellTallies nD τ sig (HIx 1)) (W : Waits sig (HIx 1)) (hO : ∀ g, O g none = 0) :
    iprop(levAts (K (F := F)).L (K (F := F)).lev ∗ emp
        ∗ (iChunkPts m d (jL L) ∗ tSharePts m d (jL L) ∗ oChunkPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_lookup L iV (Memref.isWhole_whole _) tV (Memref.isWhole_whole _) oV (Memref.isWhole_whole _)
            sI (Memref.isWhole_whole _) sT (Memref.isWhole_whole _) sO (Memref.isWhole_whole _) cc0_scratch3 cc0_scratch4 cc0_scoped0)
          fun _ => iprop((iChunkPts m d (jL L) ∗ tSharePts m d (jL L) ∗ oChunkPts d (jL L) (outV m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_lookup_eq_skeleton]; unfold cc0_lookup_skel
  rw [(K (F := F)).scopedBufs_V hF d (cV L) (jV L), SparseCore.Cfg.scopedSems0_V (Val := Elt F) d (cV L) (jV L), ownSems0_V, ownBufs_V]
  iintro ⟨#Hlv, -, ⟨Hi, Ht, Ho⟩, ⟨⟨%fs, Hs⟩, ⟨%ft, Hst⟩, ⟨%fo, Hso⟩, Hbufs⟩, ⟨HsemI, HsemT, HsemO, Hsems⟩, HO⟩
  ihave Hmw := ((K (F := F)).mayWaits_none (thr := V d (cV L) (jV L)) hO) $$ Hlv
  ihave Hi' := (Entails.of_eq (pts_iChunkK (F := F) d L _).symm) $$ Hi
  ihave Ho' := (Entails.of_eq (pts_oChunkK (F := F) d L _).symm) $$ Ho
  ihave Ht' := (Entails.of_eq (pts_tV (F := F) d L _ _).symm) $$ Ht
  ihave Hs' := (Entails.of_eq (pts_sI (F := F) d L _).symm) $$ Hs
  ihave Hst' := (Entails.of_eq (pts_sT (F := F) d L _).symm) $$ Hst
  ihave Hso' := (Entails.of_eq (pts_sO (F := F) d L _).symm) $$ Hso
  sl_exec_parts!
  sl_step
  -- the 64 stored groups tile the result scratch, and each is the selection on its 16 words
  have hcov : ∀ y : S1024.Idx, ∃ p ∈ tile_body.sl.Hso'_64 m d L fs ft, y ∈ p.1.set :=
    View.cover_of_tiledL _ S16.size (by sl_kernel_rfl)
  have hG : ∀ p ∈ tile_body.sl.Hso'_64 m d L fs ft, ∀ x : p.1.shape.Idx,
      p.2 x = selG (tile_body.sl.v14 m d L ft) (tile_body.sl.v16 m d L ft)
        (View.write (Elt F) (sI : Memref sig .scVector .vmem S1024 .i32).view fs (tile_body.sl.dma0 m d L) Finset.univ) (p.1.emb x) := by
    -- group by group, last stored first: the stored vector's definition opened down to the load, the two entries and
    -- the index scratch kept as they are, then the one lemma on a group (`piece_apply`)
    unfold tile_body.sl.Hso'_64
    refine List.forall_mem_cons.mpr ⟨fun x => by (unfold k0_pay2; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold k0_pay1 tile_body.sl.r_2; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v636 tile_body.sl.v633 tile_body.sl.v630 tile_body.sl.v628 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v626 tile_body.sl.v623 tile_body.sl.v620 tile_body.sl.v618 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v616 tile_body.sl.v613 tile_body.sl.v610 tile_body.sl.v608 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v606 tile_body.sl.v603 tile_body.sl.v600 tile_body.sl.v598 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v596 tile_body.sl.v593 tile_body.sl.v590 tile_body.sl.v588 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_57
    refine List.forall_mem_cons.mpr ⟨fun x => by (unfold tile_body.sl.v586 tile_body.sl.v583 tile_body.sl.v580 tile_body.sl.v578 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v576 tile_body.sl.v573 tile_body.sl.v570 tile_body.sl.v568 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v566 tile_body.sl.v563 tile_body.sl.v560 tile_body.sl.v558 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v556 tile_body.sl.v553 tile_body.sl.v550 tile_body.sl.v548 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_53
    refine List.forall_mem_cons.mpr ⟨fun x => by (unfold tile_body.sl.v546 tile_body.sl.v543 tile_body.sl.v540 tile_body.sl.v538 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v536 tile_body.sl.v533 tile_body.sl.v530 tile_body.sl.v528 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v526 tile_body.sl.v523 tile_body.sl.v520 tile_body.sl.v518 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v516 tile_body.sl.v513 tile_body.sl.v510 tile_body.sl.v508 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_49
    refine List.forall_mem_cons.mpr ⟨fun x => by (unfold tile_body.sl.v506 tile_body.sl.v503 tile_body.sl.v500 tile_body.sl.v498 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v496 tile_body.sl.v493 tile_body.sl.v490 tile_body.sl.v488 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v486 tile_body.sl.v483 tile_body.sl.v480 tile_body.sl.v478 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v476 tile_body.sl.v473 tile_body.sl.v470 tile_body.sl.v468 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_45
    refine List.forall_mem_cons.mpr ⟨fun x => by (unfold tile_body.sl.v466 tile_body.sl.v463 tile_body.sl.v460 tile_body.sl.v458 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v456 tile_body.sl.v453 tile_body.sl.v450 tile_body.sl.v448 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v446 tile_body.sl.v443 tile_body.sl.v440 tile_body.sl.v438 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v436 tile_body.sl.v433 tile_body.sl.v430 tile_body.sl.v428 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v426 tile_body.sl.v423 tile_body.sl.v420 tile_body.sl.v418 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_40
    refine List.forall_mem_cons.mpr ⟨fun x => by (unfold tile_body.sl.v416 tile_body.sl.v413 tile_body.sl.v410 tile_body.sl.v408 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v406 tile_body.sl.v403 tile_body.sl.v400 tile_body.sl.v398 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v396 tile_body.sl.v393 tile_body.sl.v390 tile_body.sl.v388 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v386 tile_body.sl.v383 tile_body.sl.v380 tile_body.sl.v378 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_36
    refine List.forall_mem_cons.mpr ⟨fun x => by (unfold tile_body.sl.v376 tile_body.sl.v373 tile_body.sl.v370 tile_body.sl.v368 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v366 tile_body.sl.v363 tile_body.sl.v360 tile_body.sl.v358 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v356 tile_body.sl.v353 tile_body.sl.v350 tile_body.sl.v348 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v346 tile_body.sl.v343 tile_body.sl.v340 tile_body.sl.v338 tile_body.sl.r_1 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_32
    refine List.forall_mem_cons.mpr ⟨fun x => by (unfold tile_body.sl.v336 tile_body.sl.v333 tile_body.sl.v330 tile_body.sl.v328 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v326 tile_body.sl.v323 tile_body.sl.v320 tile_body.sl.v318 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v316 tile_body.sl.v313 tile_body.sl.v310 tile_body.sl.v308 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v306 tile_body.sl.v303 tile_body.sl.v300 tile_body.sl.v298 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v296 tile_body.sl.v293 tile_body.sl.v290 tile_body.sl.v288 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_27
    refine List.forall_mem_cons.mpr ⟨fun x => by (unfold tile_body.sl.v286 tile_body.sl.v283 tile_body.sl.v280 tile_body.sl.v278 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v276 tile_body.sl.v273 tile_body.sl.v270 tile_body.sl.v268 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v266 tile_body.sl.v263 tile_body.sl.v260 tile_body.sl.v258 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v256 tile_body.sl.v253 tile_body.sl.v250 tile_body.sl.v248 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_23
    refine List.forall_mem_cons.mpr ⟨fun x => by (unfold tile_body.sl.v246 tile_body.sl.v243 tile_body.sl.v240 tile_body.sl.v238 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v236 tile_body.sl.v233 tile_body.sl.v230 tile_body.sl.v228 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v226 tile_body.sl.v223 tile_body.sl.v220 tile_body.sl.v218 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v216 tile_body.sl.v213 tile_body.sl.v210 tile_body.sl.v208 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_19
    refine List.forall_mem_cons.mpr ⟨fun x => by (unfold tile_body.sl.v206 tile_body.sl.v203 tile_body.sl.v200 tile_body.sl.v198 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v196 tile_body.sl.v193 tile_body.sl.v190 tile_body.sl.v188 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v186 tile_body.sl.v183 tile_body.sl.v180 tile_body.sl.v178 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v176 tile_body.sl.v173 tile_body.sl.v170 tile_body.sl.v168 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_15
    refine List.forall_mem_cons.mpr ⟨fun x => by (unfold tile_body.sl.v166 tile_body.sl.v163 tile_body.sl.v160 tile_body.sl.v158 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v156 tile_body.sl.v153 tile_body.sl.v150 tile_body.sl.v148 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v146 tile_body.sl.v143 tile_body.sl.v140 tile_body.sl.v138 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v136 tile_body.sl.v133 tile_body.sl.v130 tile_body.sl.v128 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v126 tile_body.sl.v123 tile_body.sl.v120 tile_body.sl.v118 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_10
    refine List.forall_mem_cons.mpr ⟨fun x => by (unfold tile_body.sl.v116 tile_body.sl.v113 tile_body.sl.v110 tile_body.sl.v108 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v106 tile_body.sl.v103 tile_body.sl.v100 tile_body.sl.v98 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v96 tile_body.sl.v93 tile_body.sl.v90 tile_body.sl.v88 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v86 tile_body.sl.v83 tile_body.sl.v80 tile_body.sl.v78 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_6
    refine List.forall_mem_cons.mpr ⟨fun x => by (unfold tile_body.sl.v76 tile_body.sl.v73 tile_body.sl.v70 tile_body.sl.v68 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v66 tile_body.sl.v63 tile_body.sl.v60 tile_body.sl.v58 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v56 tile_body.sl.v53 tile_body.sl.v50 tile_body.sl.v48 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v46 tile_body.sl.v43 tile_body.sl.v40 tile_body.sl.v38 tile_body.sl.r tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    unfold tile_body.sl.Hso'_2
    refine List.forall_mem_cons.mpr ⟨fun x => by (unfold tile_body.sl.v36 tile_body.sl.v33 tile_body.sl.v30 tile_body.sl.v28 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    refine List.forall_mem_cons.mpr ⟨fun x => by (unfold tile_body.sl.v26 tile_body.sl.v23 tile_body.sl.v20 tile_body.sl.v18 tile_body.sl.v21 tile_body.sl.v22 tile_body.sl.v19; generalize tile_body.sl.v14 m d L ft = a0; generalize tile_body.sl.v16 m d L ft = a1; generalize View.write (Elt F) (sI : Memref sig .scVector .vmem S1024 .i32).view fs (tile_body.sl.dma0 m d L) Finset.univ = C0; exact piece_apply a0 a1 C0 _ _ x), ?_⟩
    exact fun _ hp => absurd hp List.not_mem_nil
  -- the two entries are the table's, the index scratch is the task's chunk of the index vector
  have hT0 : tile_body.sl.v14 m d L ft = tabV m d (ix1 0) := table_entry0 ft (tile_body.sl.dma0_1 m d)
  have hT1 : tile_body.sl.v16 m d L ft = tabV m d (ix1 1) := table_entry1 ft (tile_body.sl.dma0_1 m d)
  have hC : ∀ y : S1024.Idx, View.write (Elt F) (sI : Memref sig .scVector .vmem S1024 .i32).view fs (tile_body.sl.dma0 m d L) Finset.univ y
      = m (iLoc d) ((chunkK L).emb y) := by
    intro y
    refine (congrFun (View.write_whole_univ (Val := Elt F) (cc0_scratch0 : Ref sig .scVector) fs (tile_body.sl.dma0 m d L)) y).trans ?_
    unfold tile_body.sl.dma0
    show View.read (Elt F) (iChunkK L).view (m (iLoc d)) y = _
    rw [View.read_apply, cast_eq]; rfl
  have hGout : ∀ y : S1024.Idx, outV m d ((oChunkK L).view.emb y)
      = selG (tile_body.sl.v14 m d L ft) (tile_body.sl.v16 m d L ft)
          (View.write (Elt F) (sI : Memref sig .scVector .vmem S1024 .i32).view fs (tile_body.sl.dma0 m d L) Finset.univ) y := by
    intro y
    unfold selG outV Cert.Proof.Spec.lookupFlat
    rw [hC y, hT0, hT1]; rfl
  -- so the copy out leaves the lookup's value on the task's chunk of the result
  have hagree : ∀ i ∈ (oChunkK L).view.set,
      (oChunkK L).view.writes (Elt F) (m (oLoc d)) [⟨Rect.whole S1024, tile_body.sl.dma193 m d L fs ft fo⟩] i = outV m d i :=
    out_agree (F := F) L _ _ hG hcov fo (m (oLoc d)) (outV m d) hGout
  isplitl [Hi' Ht' Ho']
  · isplitl [Hi']; · iapply (Entails.of_eq (pts_iChunkK (F := F) d L _)); iexact Hi'
    isplitl [Ht']; · iapply (Entails.of_eq (pts_tV (F := F) d L _ _)); iexact Ht'
    iapply (Entails.of_eq ((pointsTo_congr hagree).trans (pts_oChunkK (F := F) d L _))); iexact Ho'
  isplitl [Hs' Hst' Hso' Hbufs]
  · isplitl [Hs']; · iexists _; iapply (Entails.of_eq (pts_sI (F := F) d L _)); iexact Hs'
    isplitl [Hst']; · iexists _; iapply (Entails.of_eq (pts_sT (F := F) d L _)); iexact Hst'
    isplitl [Hso']; · iexists _; iapply (Entails.of_eq (pts_sO (F := F) d L _)); iexact Hso'
    iexact Hbufs
  isplitl [HsemI HsemT HsemO Hsems]
  · isplitl [HsemI]; · iexact HsemI
    isplitl [HsemT]; · iexact HsemT
    isplitl [HsemO]; · iexact HsemO
    iexact Hsems
  iexists (insert (SemLoc.dma cc0_scoped0.sem, (default : HIx 1)) (insert (SemLoc.dma cc0_scratch3.sem, (default : HIx 1))
    (insert (SemLoc.dma cc0_scratch4.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  iexact HO

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_lookup (coordsV c s)
          iV (Memref.isWhole_whole _) tV (Memref.isWhole_whole _) oV (Memref.isWhole_whole _)
          sI (Memref.isWhole_whole _) sT (Memref.isWhole_whole _) sO (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task of the one call meets its obligation: it is `tile_body` at the task's coordinates. -/
theorem tileObl : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts O W hO).trans (wp_mono frame _ _ fun _ => obl_post)

end Cert.Proof.KB

end
-- ==== Proof.PreRange.lean ====
/-
  What the precondition says of the index words. The precondition is the conjunction of two array-wide tests, each an
  `and` over every entry: the table's entries are finite, and every index word `v` satisfies `0 ≤ v` and `v ≤ 1` read
  as a signed word. Only the second test is used here: a signed 32-bit word between 0 and 1 is the word 0 or the word 1.
-/
import proofs.«207179_g33071248179625_cont_8to1_b_223_18_alg».proof.Pre_input_domain
import proofs.«207179_g33071248179625_cont_8to1_b_223_18_alg».proof.Proof.Gen.Pre_input_domain
import proofs.«207179_g33071248179625_cont_8to1_b_223_18_alg».proof.Proof.Spec
import Idealize.ShloMosaic.Lib.ReduceAll
import Idealize.ShloMosaic.Lib.ValueIdx

namespace Cert.Proof.PreRange

open Idealize.ShloMosaic Idealize.ShloMosaic.ValueIdx

/-- The rank-0 shape has one index. -/
instance : Subsingleton Cert.Pre_input_domain.S_.Idx := ⟨fun a b => funext fun d => d.elim0⟩

/-- A 32-bit word that is at least 0 and at most 1 as a signed number is 0 or 1. -/
theorem word_range (v : BitVec 32)
    (h : IntOp.andi (IntOp.cmpi .sge v 0#32) (IntOp.cmpi .sle v 1#32) = 1#1) : v = 0#32 ∨ v = 1#32 := by
  obtain ⟨h0, h1⟩ := IntOp.andi_eq_one.1 h
  rw [IntOp.cmpi_sge] at h0
  rw [IntOp.cmpi_sle] at h1
  simp only [BitVec.toInt_eq_toNat_cond, BitVec.toNat_ofNat, Nat.reducePow, Nat.reduceMod] at h0 h1
  have hv : v.toNat = 0 ∨ v.toNat = 1 := by omega
  rcases hv with hv | hv
  · exact Or.inl (BitVec.eq_of_toNat_eq (by simpa using hv))
  · exact Or.inr (BitVec.eq_of_toNat_eq (by simpa using hv))

/-- Under the precondition every index word is 0 or 1. -/
theorem inRange_of_pre {F : FTy → Type} [FloatOps F] [Cert.Pre_input_domain.Facts]
    (idx : IVec Cert.Pre_input_domain.S16384 32) (tab : FVec F Cert.Pre_input_domain.S2x1 .f32)
    (h : Cert.Pre_input_domain.fn (F := F) idx tab = (fun _ => 1#1)) : Cert.Proof.Spec.InRange idx := by
  intro i
  have e := congrFun h ValueIdx.ix0
  dsimp only [Cert.Pre_input_domain.fn] at e
  have e2 := (IntOp.andi_eq_one.1 e).2
  have e3 := Host.reduce_andi_all _ _ _ _ _ e2 i
  exact word_range _ e3

end Cert.Proof.PreRange
-- ==== Proof.RefRun.lean ====
/-
  The reference's run and its value. The reference is a straight line of twenty-five array operations (one call of a
  function whose body is twenty-four operations, one of them a call of a one-operation function; a call means the
  callee's body on the caller's buffers). From any memory every execution ends with each buffer at the operations'
  composed value of the two arguments, the arguments unchanged.

  The composed value: with `idx` the index words and `tab` the table,
    idx' = (idx < 0 ? idx + 2 : idx),  ok = (idx' ≥ 0) and (idx' ≤ 1),  result = (ok ? tab[clamp idx', ·] : NaN constant).
  When every index word is 0 or 1: `idx' = idx` (it is not negative), `ok` holds everywhere, the clamp is the identity,
  so row `r` of the result is the table's row `idx r` — the specification's `lookup`. The NaN constant is never selected,
  and nothing is asked of it.
-/
import proofs.«207179_g33071248179625_cont_8to1_b_223_18_alg».proof.ReferenceIdeal
import proofs.«207179_g33071248179625_cont_8to1_b_223_18_alg».proof.Proof.Gen.ReferenceIdeal
import proofs.«207179_g33071248179625_cont_8to1_b_223_18_alg».proof.Proof.Spec
import Idealize.ShloMosaic.Lib.StableHlo.Run
import Idealize.ShloMosaic.Lib.ValueIdx
import Idealize.ShloMosaic.Lib.Pipeline.Value
import Idealize.ShloMosaic.Lib.Affine
import Idealize.ShloMosaic.PureOps.Reduce

noncomputable section

namespace Cert.Proof.RefRun

open Idealize.ShloMosaic Idealize.ShloMosaic.TcCoe Idealize.ShloMosaic.StableHlo Idealize.SL.Sem Idealize.ShloMosaic.ValueIdx
open Cert.ReferenceIdeal

variable {F : FTy → Type} [FloatOps F] [Cert.ReferenceIdeal.Facts]
open Cert.ReferenceIdeal.Facts₀

/-! ## The program as a list of operations -/

/-- @main's twenty-five operations in order, the two calls unfolded over their buffer records: the index words' sign
    test and the wrapped index (`idx + 2`), the select between them (the inner call), the index column, its two range
    tests and their conjunction, the conjunction over the column's one entry per row, the gather, the row mask spread back over the
    column, the NaN constant spread over the result's shape, the final select. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 2#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 1#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S2x1_S16384x1_S16384x1_1_0_n_n_0_1_11 x i),
    TRef.unary main_call0.v12 main_call0.v14 (broadcastInDim S16384x1 ![0] bcast_S16384_S16384x1_0),
    TRef.nullary main_call0.cst (constant S_ .f32 0x7FC00000#32),
    TRef.unary main_call0.cst main_call0.v15 (broadcastInDim S16384x1 ![] bcast_S_S16384x1),
    TRef.ternary main_call0.v14 main_call0.v13 main_call0.v15 main_call0.v16 select ]

set_option maxRecDepth 1024 in
/-- @main is that straight line: the two functions' bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main terminates, every buffer at the
    operations' fold over the launch contents. -/
theorem run_ops (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The value the operations compose -/

/-- The index words with the negative ones wrapped: `idx + 2` where `idx < 0`, else `idx`. -/
def wrapped (idx : IVec S16384 32) : IVec S16384 32 :=
  select (cmpi .slt idx (broadcastInDim S16384 ![] bcast_S_S16384 (constantI S_ 32 0#32)))
    (addi idx (broadcastInDim S16384 ![] bcast_S_S16384 (constantI S_ 32 2#32))) idx

/-- The wrapped index words as a column. -/
def col (idx : IVec S16384 32) : IVec S16384x1 32 := broadcastInDim S16384x1 ![0] bcast_S16384_S16384x1_0 (wrapped idx)

/-- The range test on the column: `0 ≤ v` and `v ≤ 1`, signed. -/
def ok (idx : IVec S16384 32) : IVec S16384x1 1 :=
  andi (cmpi .sge (col idx) (broadcastInDim S16384x1 ![] bcast_S_S16384x1 (constantI S_ 32 0#32)))
    (cmpi .sle (col idx) (broadcastInDim S16384x1 ![0, 1] bcast_S1x1_S16384x1_0_1
      (broadcastInDim S1x1 ![1] bcast_S1_S1x1_1 (constantI S1 32 1#32))))

/-- The range test per row: the conjunction over the row's one entry. -/
def okRow (idx : IVec S16384 32) : IVec S16384 1 :=
  Host.reduce IntOp.andi (ok idx) (constantI S_ 1 1#1) reducesTo_S16384x1_S16384_d1 h_S_

/-- The result as a function of the index words and the table: the operations' composition. -/
def refVal (idx : IVec S16384 32) (tab : FVec F S2x1 .f32) : FVec F S16384x1 .f32 :=
  select (broadcastInDim S16384x1 ![0] bcast_S16384_S16384x1_0 (okRow idx))
    (Host.gather gather_S2x1_S16384x1_S16384x1_1_0_n_n_0_1_11 tab (col idx))
    (broadcastInDim S16384x1 ![] bcast_S_S16384x1 (constant S_ .f32 0x7FC00000#32))

attribute [local irreducible] Host.reduce Host.gather in
set_option maxRecDepth 4096 in
/-- The operations' fold at the result buffer is that composition, by computation: each operation's result read at its
    own buffer, every other buffer as it was. -/
theorem out_eq (V : Valuation τ sig (Elt F)) :
    after ops V (main_v0 : DevRef τ sig) = refVal (V (main_arg0 : DevRef τ sig)) (V (main_arg1 : DevRef τ sig)) := by
  after_results
  rfl

/-- No operation writes the first argument. -/
theorem arg0_eq (V : Valuation τ sig (Elt F)) :
    after ops V (main_arg0 : DevRef τ sig) = V (main_arg0 : DevRef τ sig) := by
  after_results

/-- No operation writes the second argument. -/
theorem arg1_eq (V : Valuation τ sig (Elt F)) :
    after ops V (main_arg1 : DevRef τ sig) = V (main_arg1 : DevRef τ sig) := by
  after_results

/-! ## The value on index words that are 0 or 1 -/

/-- A conjunction, started at 1, over words that are all 1 is 1. -/
theorem foldl_andi_ones {ι : Type} (x : ι → BitVec 1) (hx : ∀ i, x i = 1#1) :
    ∀ l : List ι, l.foldl (fun r i => IntOp.andi r (x i)) 1#1 = 1#1
  | [] => rfl
  | a :: l => by
    have e : IntOp.andi 1#1 (x a) = 1#1 := by rw [hx a]; decide
    rw [List.foldl_cons, e]
    exact foldl_andi_ones x hx l

/-- The row-wise conjunction of an array of ones is one. -/
theorem reduce_ones (x : IVec S16384x1 1) (hx : ∀ j, x j = 1#1) (i : S16384.Idx) :
    Host.reduce IntOp.andi x (constantI S_ 1 1#1) reducesTo_S16384x1_S16384_d1 h_S_ i = 1#1 := by
  rw [Host.reduce_eq_foldl]
  exact foldl_andi_ones x hx _

/-- The gather read at `(r, c)`: the table's row named by the index column's entry `(r, 0)` — the word `v` there read
    signed and clamped into `[0, 1]` — at column 0. -/
theorem gather_apply {α : Type} (x : S2x1.Idx → α) (ci : IVec S16384x1 32) (r : Fin 16384) (c : Fin 1) (v : BitVec 32)
    (hv : ci (ix2 r (0 : Fin 1)) = v) (hlt : min v.toInt.toNat 1 < 2) :
    Host.gather gather_S2x1_S16384x1_S16384x1_1_0_n_n_0_1_11 x ci (ix2 r c) = x (ix2 (⟨min v.toInt.toNat 1, hlt⟩ : Fin 2) (0 : Fin 1)) := by
  subst hv
  unfold Host.gather
  congr 1
  funext a
  refine Fin.ext ?_
  match a with
  | ⟨0, _⟩ =>
    show gather_S2x1_S16384x1_S16384x1_1_0_n_n_0_1_11.start (ix2 r c) ci 0 + gather_S2x1_S16384x1_S16384x1_1_0_n_n_0_1_11.batchCoord (ix2 r c) 0 + gather_S2x1_S16384x1_S16384x1_1_0_n_n_0_1_11.offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2x1_S16384x1_S16384x1_1_0_n_n_0_1_11.startIndexMap from List.mem_singleton.mpr rfl)]
    have hsi : gather_S2x1_S16384x1_S16384x1_1_0_n_n_0_1_11.siIdx (ix2 r c) ⟨List.idxOf (0 : Fin 2) gather_S2x1_S16384x1_S16384x1_1_0_n_n_0_1_11.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    have h : gather_S2x1_S16384x1_S16384x1_1_0_n_n_0_1_11.start (ix2 r c) ci 1 + gather_S2x1_S16384x1_S16384x1_1_0_n_n_0_1_11.batchCoord (ix2 r c) 1 + gather_S2x1_S16384x1_S16384x1_1_0_n_n_0_1_11.offCoord (ix2 r c) 1 < 1 :=
      gather_S2x1_S16384x1_S16384x1_1_0_n_n_0_1_11.lt (ix2 r c) ci 1
    show gather_S2x1_S16384x1_S16384x1_1_0_n_n_0_1_11.start (ix2 r c) ci 1 + gather_S2x1_S16384x1_S16384x1_1_0_n_n_0_1_11.batchCoord (ix2 r c) 1 + gather_S2x1_S16384x1_S16384x1_1_0_n_n_0_1_11.offCoord (ix2 r c) 1 = 0
    omega

/-- An index word that is 0 or 1 is not negative: the wrap leaves it. -/
theorem wrapped_apply (idx : IVec S16384 32) (hr : Cert.Proof.Spec.InRange idx) (i : S16384.Idx) : wrapped idx i = idx i := by
  show Scalar.select (IntOp.cmpi .slt (idx i) 0#32) (IntOp.addi (idx i) 2#32) (idx i) = idx i
  rcases hr i with h | h <;> rw [h] <;> decide

/-- A vector spread along a new second axis of extent 1, read at `(r, c)`, is the vector at `r`. -/
theorem bcast_col_apply {α : Type} (x : S16384.Idx → α) (r : Fin 16384) (c : Fin 1) :
    broadcastInDim S16384x1 ![0] bcast_S16384_S16384x1_0 x (ix2 r c) = x (ix1 r) := by
  unfold broadcastInDim
  refine congrArg x (funext fun a => ?_)
  match a with
  | ⟨0, _⟩ => rfl

/-- The column's entry in row `r` is the wrapped word `r`. -/
theorem col_apply (idx : IVec S16384 32) (r : Fin 16384) (c : Fin 1) : col idx (ix2 r c) = wrapped idx (ix1 r) :=
  bcast_col_apply (wrapped idx) r c

/-- On words that are 0 or 1 the range test holds at every entry. -/
theorem ok_apply (idx : IVec S16384 32) (hr : Cert.Proof.Spec.InRange idx) (j : S16384x1.Idx) : ok idx j = 1#1 := by
  obtain ⟨r, c, rfl⟩ : ∃ (r : Fin 16384) (c : Fin 1), j = ix2 r c := ⟨j 0, j 1, eq_ix2 j⟩
  show IntOp.andi (IntOp.cmpi .sge (col idx (ix2 r c)) 0#32) (IntOp.cmpi .sle (col idx (ix2 r c)) 1#32) = 1#1
  rw [col_apply, wrapped_apply idx hr]
  rcases hr (ix1 r) with h | h <;> rw [h] <;> decide

/-- … and so in every row. -/
theorem okRow_apply (idx : IVec S16384 32) (hr : Cert.Proof.Spec.InRange idx) (i : S16384.Idx) : okRow idx i = 1#1 :=
  reduce_ones (ok idx) (ok_apply idx hr) i

/-- On index words that are 0 or 1 the reference's value is the table read through them. -/
theorem refVal_eq_lookup (idx : IVec S16384 32) (tab : FVec F S2x1 .f32) (hr : Cert.Proof.Spec.InRange idx) :
    refVal idx tab = Cert.Proof.Spec.lookup idx tab := by
  funext j
  obtain ⟨r, c, rfl⟩ : ∃ (r : Fin 16384) (c : Fin 1), j = ix2 r c := ⟨j 0, j 1, eq_ix2 j⟩
  have hm : broadcastInDim S16384x1 ![0] bcast_S16384_S16384x1_0 (okRow idx) (ix2 r c) = 1#1 := by
    rw [bcast_col_apply]
    exact okRow_apply idx hr _
  have hc : col idx (ix2 r (0 : Fin 1)) = idx (ix1 r) := by rw [col_apply, wrapped_apply idx hr]
  have key : ∀ v : BitVec 32, (v = 0#32 ∨ v = 1#32) → ∀ hlt : min v.toInt.toNat 1 < 2,
      tab (ix2 (⟨min v.toInt.toNat 1, hlt⟩ : Fin 2) (0 : Fin 1)) = if v = 0#32 then tab (ix2 0 0) else tab (ix2 1 0) := by
    intro v hv hlt
    rcases hv with rfl | rfl
    · rw [if_pos rfl]; rfl
    · rw [if_neg (by decide)]; rfl
  unfold refVal
  rw [select_apply, hm, select_one, gather_apply tab (col idx) r c _ hc (by omega)]
  exact key _ (hr _) _

/-! ## The run -/

/-- On index words that are all 0 or 1, every execution of the reference ends with its result the table read through
    the index words, and its two arguments unchanged. -/
theorem run (m : (ℓ : Loc nD τ sig) → Buf (Elt Ideal) ℓ) (ρ : Dev nD → PrngReg)
    (hr : ∀ c : Dev nD, Cert.Proof.Spec.InRange (m ((c.tc : Thread nD τ).loc main_arg0))) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v0) = Cert.Proof.Spec.lookup (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c =>
      ⟨(h c main_v0).trans ((out_eq _).trans (refVal_eq_lookup _ _ (hr c))),
        (h c main_arg0).trans (arg0_eq _), (h c main_arg1).trans (arg1_eq _)⟩)
    (run_ops m ρ)

/-- The same run with the value dropped: the arguments are unchanged. -/
theorem frame (m : (ℓ : Loc nD τ sig) → Buf (Elt Ideal) ℓ) (ρ : Dev nD → PrngReg)
    (hr : ∀ c : Dev nD, Cert.Proof.Spec.InRange (m ((c.tc : Thread nD τ).loc main_arg0))) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => (h c).2) (run m ρ hr)

end Cert.Proof.RefRun

end
-- ==== Proof.lean ====
/-
  The claim of this certificate. The kernel looks sixteen chunks of an index vector up in a table of two entries:
  word `r` of the result is the table's second entry where index word `r` is non-zero and its first entry where that
  word is zero. The reference takes the table's row named by each index word; where every index word is 0 or 1 (the
  precondition) the two are the same function of the index vector and the table (`Cert.Proof.Spec.lookup`).

  The kernel runs as one SparseCore call of sixteen tasks beside the TensorCore's two re-layings of the table and of
  the result. Its run — every weakly fair execution of all the threads terminates, nothing faults, the arguments are
  unchanged and the result is the lookup — is stated once for any float instance (Proof/KILaunch.lean over one task's
  proof in Proof/KITile.lean; the same texts over the word-level program in Proof/KBLaunch.lean, Proof/KBTile.lean).
  The three frames are the runs with the values dropped; the idealization changed no operation, so `preserves` states
  nothing; `algebraic` puts the kernel's run at the ideal instance beside the reference's (Proof/RefRun.lean).
-/
import proofs.«207179_g33071248179625_cont_8to1_b_223_18_alg».proof.Defs
import proofs.«207179_g33071248179625_cont_8to1_b_223_18_alg».proof.Proof.Gen.Kernel
import proofs.«207179_g33071248179625_cont_8to1_b_223_18_alg».proof.Proof.Gen.Kernel.Skeleton
import proofs.«207179_g33071248179625_cont_8to1_b_223_18_alg».proof.Proof.Gen.KernelIdeal
import proofs.«207179_g33071248179625_cont_8to1_b_223_18_alg».proof.Proof.Gen.KernelIdeal.Skeleton
import proofs.«207179_g33071248179625_cont_8to1_b_223_18_alg».proof.Proof.Gen.ReferenceIdeal
import proofs.«207179_g33071248179625_cont_8to1_b_223_18_alg».proof.Proof.Gen.Pre_input_domain
import proofs.«207179_g33071248179625_cont_8to1_b_223_18_alg».proof.Proof.KILaunch
import proofs.«207179_g33071248179625_cont_8to1_b_223_18_alg».proof.Proof.KBLaunch
import proofs.«207179_g33071248179625_cont_8to1_b_223_18_alg».proof.Proof.KITile
import proofs.«207179_g33071248179625_cont_8to1_b_223_18_alg».proof.Proof.KBTile
import proofs.«207179_g33071248179625_cont_8to1_b_223_18_alg».proof.Proof.PreRange
import proofs.«207179_g33071248179625_cont_8to1_b_223_18_alg».proof.Proof.RefRun
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    -- the kernel as printed: its run with the value dropped
    fun m ρ _ => (θ_run Cert.Kernel.defs _ _).mono (fun _ h c => (h c).2) (Cert.Proof.KB.run_main (F := Bits) m ρ (Cert.Proof.KB.tileObl m)),
    -- the kernel at the ideal instance: likewise
    fun m ρ _ => (θ_run Cert.KernelIdeal.defs _ _).mono (fun _ h c => (h c).2) (Cert.Proof.KI.run_main (F := Ideal) m ρ (Cert.Proof.KI.tileObl m)),
    -- the reference: its run with the value dropped, the index words 0 or 1 by the precondition
    fun m ρ hpre => Cert.Proof.RefRun.frame m ρ (fun c => Cert.Proof.PreRange.inRange_of_pre _ _ (hpre c)),
    trivial,
    -- both at the ideal instance end with the lookup of the index vector in the table
    fun m ρ m' ρ' hpre hagree =>
      ⟨fun c => Cert.Proof.Spec.lookup (F := Ideal) (m (Cert.Proof.KI.iLoc c)) (m (Cert.Proof.KI.aLoc c)),
        (θ_run Cert.KernelIdeal.defs _ _).mono (fun _ h c => ⟨(h c).1.trans (Cert.Proof.KI.resV_eq m c), (h c).2.1, (h c).2.2⟩)
          (Cert.Proof.KI.run_main (F := Ideal) m ρ (Cert.Proof.KI.tileObl m)),
        (θ_run Cert.ReferenceIdeal.defs _ _).mono
          (fun _ h c => ⟨(h c).1.trans (congrArg₂ (Cert.Proof.Spec.lookup (F := Ideal)) (hagree c).1 (hagree c).2), (h c).2.1, (h c).2.2⟩)
          (Cert.Proof.RefRun.run m' ρ' (fun c => by rw [(hagree c).1]; exact Cert.Proof.PreRange.inRange_of_pre _ _ (hpre c)))⟩⟩

end Cert.Proof

end
